-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩

abbrev nBuf : Space → Nat
  | .hbm => 76
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .i1⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_10 : Ref sig .tc := ⟨.hbm, 92, rfl⟩
abbrev main_v52 : Ref sig .tc := ⟨.hbm, 93, rfl⟩
abbrev main_v53 : Ref sig .tc := ⟨.hbm, 94, rfl⟩
abbrev main_cst_11 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/- The idealized kernel's run with the RESULT named: from any memory with zero counters every weakly fair execution of
   @main terminates, nothing faults, the argument arrays end as launched, and the result array ends at the contents the
   last region leaves in it — the fold of @main's segments (host stretches and the three regions) over the launch
   memory, read at the result's buffer. -/
import proofs.«158064_j74947179316229_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run, read at the result and at the arguments: the last thread state holds every unscoped buffer at
    the last boundary's contents, of which the result's buffer is one. -/
theorem run_result : θ_run defs (onTc (τ := τ) (main (F := F))) ⟨m, fun _ => 0, ρ⟩ (fun r => ∀ c : Dev nD,
      r.2.mem ((c.tc : Thread nD τ).loc main_v36) = W8 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

/-- The result's buffer is region 2's output array: at the last boundary it holds what the pipeline's write-backs leave. -/
theorem result_is_region2 (c : Dev nD) :
    W8 m ρ c (Proc.devRef .tc main_v36) = (dat2 (V7 m ρ) c).arrAt 6 cfg2.N := W8_arr m ρ c 6

end Cert.KernelIdeal.ValueRun

end
-- ==== Proof.KernelHost.lean ====
/- The idealized kernel's host side: the host chains between its three regions as named functions, each stretch of
   host operations read at the buffers the next region stages, and with them what each region finds in its input
   arrays, down to the launch memory. -/
import proofs.«158064_j74947179316229_1_alg».proof.Proof.Gen.KernelIdeal.Frame
import Idealize.ShloMosaic.Lib.StableHlo.Run

set_option maxRecDepth 16384

noncomputable section

namespace Cert.KernelIdeal.HostFns

open Cert.KernelIdeal Cert.KernelIdeal.Gen
open Idealize.ShloMosaic Idealize.ShloMosaic.TcCoe Idealize.SL.Sem Idealize.ShloMosaic.StableHlo

variable {F : FTy → Type} [FloatOps F]

/-! ## The host chains the two programs share, each as one named function -/

/-- Per node, the reciprocal square root of its edge count, the count taken as at least one: the count is the
    scatter-add of a one per edge at the edge's end `idx`. -/
def invSqrtDeg (idx : (⟨S800000, .i32⟩ : BufTy).Contents (Elt F)) : (⟨S50000, .f32⟩ : BufTy).Contents (Elt F) :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))
    (broadcastInDim S50000 ![] bcast_S_S50000 (constant S_ .f32 0x3F800000#32)))

/-- The neighbour sum: row `e` of the gathered table is row `src e` of `h` (a negative index first moved up by the
    row count), and the rows are scatter-added at `dst e` into zeros. -/
def neighbourSum (h : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The column sums of `z` over its 50000 rows. -/
def colSum (z : (⟨S50000x128, .f32⟩ : BufTy).Contents (Elt F)) : (⟨S128, .f32⟩ : BufTy).Contents (Elt F) :=
  Host.reduceAdd z (constant S_ .f32 0x00000000#32) reducesTo_S50000x128_S128_d0 h_S_

/-- The column means: the sums over the row count. -/
def colMean (z : (⟨S50000x128, .f32⟩ : BufTy).Contents (Elt F)) : (⟨S128, .f32⟩ : BufTy).Contents (Elt F) :=
  Host.divf (colSum z) (broadcastInDim S128 ![] bcast_S_S128 (constant S_ .f32 0x47435000#32))

/-- `z` less its column means (the means taken as a row and spread over the rows). -/
def centred (z : (⟨S50000x128, .f32⟩ : BufTy).Contents (Elt F)) : (⟨S50000x128, .f32⟩ : BufTy).Contents (Elt F) :=
  subf z (broadcastInDim S50000x128 ![0, 1] bcast_S1x128_S50000x128_0_1
    (Host.divf (broadcastInDim S1x128 ![1] bcast_S128_S1x128_1 (colSum z))
      (broadcastInDim S1x128 ![] bcast_S_S1x128 (constant S_ .f32 0x47435000#32))))

/-- The variance's divisor: the row count less the (zero) degrees of freedom removed. -/
def dof : (⟨S_, .f32⟩ : BufTy).Contents (Elt F) :=
  subf (constant S_ .f32 0x47435000#32) (sitofp .f32 (constantI S_ 32 0#32))

/-- The column variances: the column sums of the squared centred values over the divisor, kept where the divisor
    is positive (elsewhere the not-a-number word). -/
def colVar (z : (⟨S50000x128, .f32⟩ : BufTy).Contents (Elt F)) : (⟨S128, .f32⟩ : BufTy).Contents (Elt F) :=
  select (broadcastInDim S128 ![] bcast_S_S128 (cmpf .ogt (dof (F := F)) (constant S_ .f32 0x00000000#32)))
    (Host.divf (Host.reduceAdd (mulf (centred z) (centred z)) (constant S_ .f32 0x00000000#32) reducesTo_S50000x128_S128_d0 h_S_)
      (broadcastInDim S128 ![] bcast_S_S128 (dof (F := F))))
    (broadcastInDim S128 ![] bcast_S_S128 (id (constant S_ .f32 0x7FC00000#32)))

/-! ## Each stretch read at an arbitrary valuation -/

section Stretches
variable (V : Valuation τ sig (Elt F))

attribute [local irreducible] Host.reduceAdd Host.gather Host.scatterAdd in
set_option maxHeartbeats 4000000 in
/-- Before region 0: the column `rsqrt(deg_out)` it scales by. -/
theorem pre0_v12 : after hostOps0 V (Proc.devRef .tc main_v12) = shapeCast S50000x1 (invSqrtDeg (V (Proc.devRef .tc main_arg5))) shapeCasts_S50000_S50000x1 := by
  after_results_simp
  rfl
attribute [local irreducible] Host.reduceAdd Host.gather Host.scatterAdd in
set_option maxHeartbeats 4000000 in
/-- Before region 0: the column `rsqrt(deg_in)` region 1 scales by. -/
theorem pre0_v14 : after hostOps0 V (Proc.devRef .tc main_v14) = shapeCast S50000x1 (invSqrtDeg (V (Proc.devRef .tc main_arg6))) shapeCasts_S50000_S50000x1 := by
  after_results_simp
  rfl
set_option maxHeartbeats 4000000 in
theorem pre0_arg0 : after hostOps0 V (Proc.devRef .tc main_arg0) = V (Proc.devRef .tc main_arg0) := by after_results_simp
set_option maxHeartbeats 4000000 in
theorem pre0_arg1 : after hostOps0 V (Proc.devRef .tc main_arg1) = V (Proc.devRef .tc main_arg1) := by after_results_simp
set_option maxHeartbeats 4000000 in
theorem pre0_arg2 : after hostOps0 V (Proc.devRef .tc main_arg2) = V (Proc.devRef .tc main_arg2) := by after_results_simp
set_option maxHeartbeats 4000000 in
theorem pre0_arg3 : after hostOps0 V (Proc.devRef .tc main_arg3) = V (Proc.devRef .tc main_arg3) := by after_results_simp
set_option maxHeartbeats 4000000 in
theorem pre0_arg4 : after hostOps0 V (Proc.devRef .tc main_arg4) = V (Proc.devRef .tc main_arg4) := by after_results_simp
set_option maxHeartbeats 4000000 in
theorem pre0_arg5 : after hostOps0 V (Proc.devRef .tc main_arg5) = V (Proc.devRef .tc main_arg5) := by after_results_simp
set_option maxHeartbeats 4000000 in
theorem pre0_arg6 : after hostOps0 V (Proc.devRef .tc main_arg6) = V (Proc.devRef .tc main_arg6) := by after_results_simp

attribute [local irreducible] Host.reduceAdd Host.gather Host.scatterAdd in
set_option maxHeartbeats 4000000 in
/-- Between regions 0 and 1: the neighbour sum of region 0's output. -/
theorem pre1_v25 : after hostOps1 V (Proc.devRef .tc main_v25) = neighbourSum (V (Proc.devRef .tc main_v15)) (V (Proc.devRef .tc main_arg5)) (V (Proc.devRef .tc main_arg6)) := by
  after_results_simp
  rfl
set_option maxHeartbeats 4000000 in
/-- Between regions 0 and 1: the bias as a row. -/
theorem pre1_v26 : after hostOps1 V (Proc.devRef .tc main_v26) = shapeCast S1x128 (V (Proc.devRef .tc main_arg2)) shapeCasts_S128_S1x128 := by
  after_results_simp
  rfl
set_option maxHeartbeats 4000000 in
theorem pre1_v14 : after hostOps1 V (Proc.devRef .tc main_v14) = V (Proc.devRef .tc main_v14) := by after_results_simp
set_option maxHeartbeats 4000000 in
theorem pre1_arg0 : after hostOps1 V (Proc.devRef .tc main_arg0) = V (Proc.devRef .tc main_arg0) := by after_results_simp
set_option maxHeartbeats 4000000 in
theorem pre1_arg1 : after hostOps1 V (Proc.devRef .tc main_arg1) = V (Proc.devRef .tc main_arg1) := by after_results_simp
set_option maxHeartbeats 4000000 in
theorem pre1_arg3 : after hostOps1 V (Proc.devRef .tc main_arg3) = V (Proc.devRef .tc main_arg3) := by after_results_simp
set_option maxHeartbeats 4000000 in
theorem pre1_arg4 : after hostOps1 V (Proc.devRef .tc main_arg4) = V (Proc.devRef .tc main_arg4) := by after_results_simp

/-- The three stretches between regions 1 and 2, as one fold. -/
abbrev pre2 : Valuation τ sig (Elt F) := after hostOps2_2 (after hostOps2_1 (after hostOps2 V))

attribute [local irreducible] Host.reduceAdd Host.gather Host.scatterAdd in
set_option maxHeartbeats 8000000 in
/-- Between regions 1 and 2: the column means of region 1's output, as a row. -/
theorem pre2_v31 : pre2 V (Proc.devRef .tc main_v31) = shapeCast S1x128 (colMean (V (Proc.devRef .tc main_v27))) shapeCasts_S128_S1x128 := by
  after_results_simp
  rfl
attribute [local irreducible] Host.reduceAdd Host.gather Host.scatterAdd in
set_option maxHeartbeats 8000000 in
/-- Between regions 1 and 2: the column variances of region 1's output, as a row. -/
theorem pre2_v33 : pre2 V (Proc.devRef .tc main_v33) = shapeCast S1x128 (colVar (V (Proc.devRef .tc main_v27))) shapeCasts_S128_S1x128 := by
  after_results_simp
  rfl
set_option maxHeartbeats 8000000 in
theorem pre2_v34 : pre2 V (Proc.devRef .tc main_v34) = shapeCast S1x128 (V (Proc.devRef .tc main_arg3)) shapeCasts_S128_S1x128 := by
  after_results_simp
  rfl
set_option maxHeartbeats 8000000 in
theorem pre2_v35 : pre2 V (Proc.devRef .tc main_v35) = shapeCast S1x128 (V (Proc.devRef .tc main_arg4)) shapeCasts_S128_S1x128 := by
  after_results_simp
  rfl
set_option maxHeartbeats 8000000 in
theorem pre2_v27 : pre2 V (Proc.devRef .tc main_v27) = V (Proc.devRef .tc main_v27) := by after_results_simp
set_option maxHeartbeats 8000000 in
theorem pre2_arg0 : pre2 V (Proc.devRef .tc main_arg0) = V (Proc.devRef .tc main_arg0) := by after_results_simp

end Stretches

end Cert.KernelIdeal.HostFns

end
-- ==== Proof.KernelBounds.lean ====
/- What each of the idealized kernel's regions finds in its input arrays, as functions of the launch memory: the
   contents at every segment boundary read at the buffers that matter, each walked back through the host stretches
   (which write only their own results) and the regions (which write only their output arrays). -/
import proofs.«158064_j74947179316229_1_alg».proof.Proof.KernelHost

set_option maxRecDepth 16384

noncomputable section

namespace Cert.KernelIdeal.Bounds

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Entering region 0 -/
theorem W1_arg0 : W1 m ρ c (Proc.devRef .tc main_arg0) = m ((c : Thread nD τ).loc main_arg0) := pre0_arg0 (W0 m ρ c)
theorem W1_arg1 : W1 m ρ c (Proc.devRef .tc main_arg1) = m ((c : Thread nD τ).loc main_arg1) := pre0_arg1 (W0 m ρ c)
theorem W1_arg2 : W1 m ρ c (Proc.devRef .tc main_arg2) = m ((c : Thread nD τ).loc main_arg2) := pre0_arg2 (W0 m ρ c)
theorem W1_arg3 : W1 m ρ c (Proc.devRef .tc main_arg3) = m ((c : Thread nD τ).loc main_arg3) := pre0_arg3 (W0 m ρ c)
theorem W1_arg4 : W1 m ρ c (Proc.devRef .tc main_arg4) = m ((c : Thread nD τ).loc main_arg4) := pre0_arg4 (W0 m ρ c)
theorem W1_arg5 : W1 m ρ c (Proc.devRef .tc main_arg5) = m ((c : Thread nD τ).loc main_arg5) := pre0_arg5 (W0 m ρ c)
theorem W1_arg6 : W1 m ρ c (Proc.devRef .tc main_arg6) = m ((c : Thread nD τ).loc main_arg6) := pre0_arg6 (W0 m ρ c)
theorem W1_v12 : W1 m ρ c (Proc.devRef .tc main_v12) = shapeCast S50000x1 (invSqrtDeg (m ((c : Thread nD τ).loc main_arg5))) shapeCasts_S50000_S50000x1 := pre0_v12 (W0 m ρ c)
theorem W1_v14 : W1 m ρ c (Proc.devRef .tc main_v14) = shapeCast S50000x1 (invSqrtDeg (m ((c : Thread nD τ).loc main_arg6))) shapeCasts_S50000_S50000x1 := pre0_v14 (W0 m ρ c)

/-! ## Leaving region 0: its output array at what its write-backs leave, every other buffer as entered -/
theorem W2_v15 : W2 m ρ c (Proc.devRef .tc main_v15) = (dat0 (V1 m ρ) c).arrAt 2 cfg0.N := W2_arr m ρ c 2
theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = m ((c : Thread nD τ).loc main_arg1) := (W2_of_ne m ρ c main_arg1 (by decide)).trans (W1_arg1 m ρ c)
theorem W2_arg2 : W2 m ρ c (Proc.devRef .tc main_arg2) = m ((c : Thread nD τ).loc main_arg2) := (W2_of_ne m ρ c main_arg2 (by decide)).trans (W1_arg2 m ρ c)
theorem W2_arg3 : W2 m ρ c (Proc.devRef .tc main_arg3) = m ((c : Thread nD τ).loc main_arg3) := (W2_of_ne m ρ c main_arg3 (by decide)).trans (W1_arg3 m ρ c)
theorem W2_arg4 : W2 m ρ c (Proc.devRef .tc main_arg4) = m ((c : Thread nD τ).loc main_arg4) := (W2_of_ne m ρ c main_arg4 (by decide)).trans (W1_arg4 m ρ c)
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)
theorem W2_v14 : W2 m ρ c (Proc.devRef .tc main_v14) = shapeCast S50000x1 (invSqrtDeg (m ((c : Thread nD τ).loc main_arg6))) shapeCasts_S50000_S50000x1 :=
  (W2_of_ne m ρ c main_v14 (by decide)).trans (W1_v14 m ρ c)

/-! ## Entering region 1 -/
theorem W3_v25 : W3 m ρ c (Proc.devRef .tc main_v25) = neighbourSum ((dat0 (V1 m ρ) c).arrAt 2 cfg0.N) (m ((c : Thread nD τ).loc main_arg5)) (m ((c : Thread nD τ).loc main_arg6)) := by
  refine (pre1_v25 (W2 m ρ c)).trans ?_
  rw [W2_v15, W2_arg5, W2_arg6]
theorem W3_v14 : W3 m ρ c (Proc.devRef .tc main_v14) = shapeCast S50000x1 (invSqrtDeg (m ((c : Thread nD τ).loc main_arg6))) shapeCasts_S50000_S50000x1 :=
  (pre1_v14 (W2 m ρ c)).trans (W2_v14 m ρ c)
theorem W3_arg1 : W3 m ρ c (Proc.devRef .tc main_arg1) = m ((c : Thread nD τ).loc main_arg1) := (pre1_arg1 (W2 m ρ c)).trans (W2_arg1 m ρ c)
theorem W3_v26 : W3 m ρ c (Proc.devRef .tc main_v26) = shapeCast S1x128 (m ((c : Thread nD τ).loc main_arg2)) shapeCasts_S128_S1x128 := by
  refine (pre1_v26 (W2 m ρ c)).trans ?_
  rw [W2_arg2]
theorem W3_arg0 : W3 m ρ c (Proc.devRef .tc main_arg0) = m ((c : Thread nD τ).loc main_arg0) := (pre1_arg0 (W2 m ρ c)).trans (W2_arg0 m ρ c)
theorem W3_arg3 : W3 m ρ c (Proc.devRef .tc main_arg3) = m ((c : Thread nD τ).loc main_arg3) := (pre1_arg3 (W2 m ρ c)).trans (W2_arg3 m ρ c)
theorem W3_arg4 : W3 m ρ c (Proc.devRef .tc main_arg4) = m ((c : Thread nD τ).loc main_arg4) := (pre1_arg4 (W2 m ρ c)).trans (W2_arg4 m ρ c)

/-! ## Leaving region 1 -/
theorem W4_v27 : W4 m ρ c (Proc.devRef .tc main_v27) = (dat1 (V3 m ρ) c).arrAt 4 cfg1.N := W4_arr m ρ c 4
theorem W4_arg0 : W4 m ρ c (Proc.devRef .tc main_arg0) = m ((c : Thread nD τ).loc main_arg0) := (W4_of_ne m ρ c main_arg0 (by decide)).trans (W3_arg0 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)

/-! ## Entering region 2 -/
theorem W7_v27 : W7 m ρ c (Proc.devRef .tc main_v27) = (dat1 (V3 m ρ) c).arrAt 4 cfg1.N := (pre2_v27 (W4 m ρ c)).trans (W4_v27 m ρ c)
theorem W7_arg0 : W7 m ρ c (Proc.devRef .tc main_arg0) = m ((c : Thread nD τ).loc main_arg0) := (pre2_arg0 (W4 m ρ c)).trans (W4_arg0 m ρ c)
theorem W7_v34 : W7 m ρ c (Proc.devRef .tc main_v34) = shapeCast S1x128 (m ((c : Thread nD τ).loc main_arg3)) shapeCasts_S128_S1x128 := by
  refine (pre2_v34 (W4 m ρ c)).trans ?_
  rw [W4_arg3]
theorem W7_v35 : W7 m ρ c (Proc.devRef .tc main_v35) = shapeCast S1x128 (m ((c : Thread nD τ).loc main_arg4)) shapeCasts_S128_S1x128 := by
  refine (pre2_v35 (W4 m ρ c)).trans ?_
  rw [W4_arg4]
theorem W7_v31 : W7 m ρ c (Proc.devRef .tc main_v31) = shapeCast S1x128 (colMean ((dat1 (V3 m ρ) c).arrAt 4 cfg1.N)) shapeCasts_S128_S1x128 := by
  refine (pre2_v31 (W4 m ρ c)).trans ?_
  rw [W4_v27]
theorem W7_v33 : W7 m ρ c (Proc.devRef .tc main_v33) = shapeCast S1x128 (colVar ((dat1 (V3 m ρ) c).arrAt 4 cfg1.N)) shapeCasts_S128_S1x128 := by
  refine (pre2_v33 (W4 m ρ c)).trans ?_
  rw [W4_v27]

end Cert.KernelIdeal.Bounds

end
-- ==== Proof.RefOps.lean ====
/- The reference program's @main as the list of its 93 host operations in program order: @main's own statements, and
   at each call of an outlined function (the variance, its inner select, the final select) that function's
   statements over the call's own buffers. With it, that every operation touches TensorCore buffers only. -/
import proofs.«158064_j74947179316229_1_alg».proof.Proof.Gen.ReferenceIdeal
import Idealize.ShloMosaic.Lib.StableHlo.Run

noncomputable section

namespace Cert.ReferenceIdeal.HostRun

open Cert.ReferenceIdeal Cert.ReferenceIdeal.Gen
open Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg5 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x00000000#32),
    StableHlo.unary main_cst_2 main_v6 (broadcastInDim S50000 ![] bcast_S_S50000 : (⟨S_, .f32⟩ : BufTy).Contents (Elt F) → (⟨S50000, .f32⟩ : BufTy).Contents (Elt F)),
    StableHlo.unary main_arg6 main_v7 (broadcastInDim S800000x1 ![0] bcast_S800000_S800000x1_0 : (⟨S800000, .i32⟩ : BufTy).Contents (Elt F) → (⟨S800000x1, .i32⟩ : BufTy).Contents (Elt F)),
    StableHlo.ternary main_v6 main_v7 main_v0 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v9 (broadcastInDim S50000 ![] bcast_S_S50000 : (⟨S_, .f32⟩ : BufTy).Contents (Elt F) → (⟨S50000, .f32⟩ : BufTy).Contents (Elt F)),
    StableHlo.binary main_v8 main_v9 main_v10 (maximumf : (⟨S50000, .f32⟩ : BufTy).Contents (Elt F) → (⟨S50000, .f32⟩ : BufTy).Contents (Elt F) → (⟨S50000, .f32⟩ : BufTy).Contents (Elt F)),
    StableHlo.unary main_v5 main_v11 (Host.rsqrt : (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.unary main_v12 main_v13 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v13 main_v14 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v15 (broadcastInDim S800000 ![] bcast_S_S800000 : (⟨S_, .i32⟩ : BufTy).Contents (Elt F) → (⟨S800000, .i32⟩ : BufTy).Contents (Elt F)),
    StableHlo.binary main_arg5 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v17 (broadcastInDim S800000 ![] bcast_S_S800000 : (⟨S_, .i32⟩ : BufTy).Contents (Elt F) → (⟨S800000, .i32⟩ : BufTy).Contents (Elt F)),
    StableHlo.binary main_arg5 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_arg5 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v14 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_5 (constant S_ .f32 0x00000000#32),
    StableHlo.unary main_cst_5 main_v22 (broadcastInDim S50000x128 ![] bcast_S_S50000x128 : (⟨S_, .f32⟩ : BufTy).Contents (Elt F) → (⟨S50000x128, .f32⟩ : BufTy).Contents (Elt F)),
    StableHlo.unary main_arg6 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v10 main_v25 (Host.rsqrt : (⟨S50000, .f32⟩ : BufTy).Contents (Elt F) → (⟨S50000, .f32⟩ : BufTy).Contents (Elt F)),
    StableHlo.unary main_v25 main_v26 (broadcastInDim S50000x1 ![0] bcast_S50000_S50000x1_0 : (⟨S50000, .f32⟩ : BufTy).Contents (Elt F) → (⟨S50000x1, .f32⟩ : BufTy).Contents (Elt F)),
    StableHlo.unary main_v26 main_v27 (broadcastInDim S50000x128 ![0, 1] bcast_S50000x1_S50000x128_0_1 : (⟨S50000x1, .f32⟩ : BufTy).Contents (Elt F) → (⟨S50000x128, .f32⟩ : BufTy).Contents (Elt F)),
    StableHlo.binary main_v24 main_v27 main_v28 (mulf : (⟨S50000x128, .f32⟩ : BufTy).Contents (Elt F) → (⟨S50000x128, .f32⟩ : BufTy).Contents (Elt F) → (⟨S50000x128, .f32⟩ : BufTy).Contents (Elt F)),
    StableHlo.binary main_v28 main_arg1 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg2 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v32 main_cst_6 main_v33 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (StableHlo.TRef.of main_v32 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (StableHlo.TRef.of main_v32 : StableHlo.TRef sig ⟨S50000x128, .f32⟩) main_call0.v4 main_call0.v5 subf,
    StableHlo.TRef.binary main_call0.v5 main_call0.v5 main_call0.v6 mulf,
    StableHlo.TRef.unary (StableHlo.TRef.of main_c_8 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v38 main_v39 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v45 main_v48 (mulf : (⟨S50000x128, .f32⟩ : BufTy).Contents (Elt F) → (⟨S50000x128, .f32⟩ : BufTy).Contents (Elt F) → (⟨S50000x128, .f32⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.unary main_cst_10 main_v52 (broadcastInDim S50000x128 ![] bcast_S_S50000x128 : (⟨S_, .f32⟩ : BufTy).Contents (Elt F) → (⟨S50000x128, .f32⟩ : BufTy).Contents (Elt F)),
    StableHlo.binary main_v51 main_v52 main_v53 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_11 (constant S_ .f32 0x3E4CCCCD#32),
    StableHlo.unary main_cst_11 main_v54 (broadcastInDim S50000x128 ![] bcast_S_S50000x128 : (⟨S_, .f32⟩ : BufTy).Contents (Elt F) → (⟨S50000x128, .f32⟩ : BufTy).Contents (Elt F)),
    StableHlo.binary main_v54 main_v51 main_v55 (mulf : (⟨S50000x128, .f32⟩ : BufTy).Contents (Elt F) → (⟨S50000x128, .f32⟩ : BufTy).Contents (Elt F) → (⟨S50000x128, .f32⟩ : BufTy).Contents (Elt F)),
    StableHlo.TRef.ternary (StableHlo.TRef.of main_v53 : StableHlo.TRef sig ⟨S50000x128, .i1⟩) (StableHlo.TRef.of main_v51 : StableHlo.TRef sig ⟨S50000x128, .f32⟩) (StableHlo.TRef.of main_v55 : StableHlo.TRef sig ⟨S50000x128, .f32⟩) main_call1.v0 select,
    StableHlo.binary main_v56 main_arg0 main_v57 (addf : (⟨S50000x128, .f32⟩ : BufTy).Contents (Elt F) → (⟨S50000x128, .f32⟩ : BufTy).Contents (Elt F) → (⟨S50000x128, .f32⟩ : BufTy).Contents (Elt F)) ]

/-- Each operation reads and writes TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

end Cert.ReferenceIdeal.HostRun

end
-- ==== Proof.RefRun.lean ====
/- The reference program read as a straight line of host operations: @main is that line (its outlined functions
   unfolded at their calls), so every weakly fair execution ends with each buffer at the fold of the operations
   over the launch contents. -/
import proofs.«158064_j74947179316229_1_alg».proof.Proof.RefOps

noncomputable section

namespace Cert.ReferenceIdeal.HostRun

open Cert.ReferenceIdeal Cert.ReferenceIdeal.Gen
open Idealize.ShloMosaic Idealize.ShloMosaic.TcCoe Idealize.SL.Sem Idealize.ShloMosaic.StableHlo

variable {F : FTy → Type} [FloatOps F]

-- ninety-three binds re-associated: the rewriting under the chain is long, not deep
set_option maxHeartbeats 8000000 in
/-- @main is the sequence of its operations: the two halves it is printed in and the three outlined functions are
    unfolded, and sequencing is re-associated to one chain. -/
theorem main_eq (c : Dev nD) : main (F := F) c = seq ops := by
  simp only [main, main_part0, main_part1, fn_var.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The host chains the two programs share, each as one named function -/

/-- Per node, the reciprocal square root of its edge count, the count taken as at least one: the count is the
    scatter-add of a one per edge at the edge's end `idx`. -/
def invSqrtDeg (idx : (⟨S800000, .i32⟩ : BufTy).Contents (Elt F)) : (⟨S50000, .f32⟩ : BufTy).Contents (Elt F) :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))
    (broadcastInDim S50000 ![] bcast_S_S50000 (constant S_ .f32 0x3F800000#32)))

/-- The neighbour sum: row `e` of the gathered table is row `src e` of `h` (a negative index first moved up by the
    row count), and the rows are scatter-added at `dst e` into zeros. -/
def neighbourSum (h : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The column sums of `z` over its 50000 rows. -/
def colSum (z : (⟨S50000x128, .f32⟩ : BufTy).Contents (Elt F)) : (⟨S128, .f32⟩ : BufTy).Contents (Elt F) :=
  Host.reduceAdd z (constant S_ .f32 0x00000000#32) reducesTo_S50000x128_S128_d0 h_S_

/-- The column means: the sums over the row count. -/
def colMean (z : (⟨S50000x128, .f32⟩ : BufTy).Contents (Elt F)) : (⟨S128, .f32⟩ : BufTy).Contents (Elt F) :=
  Host.divf (colSum z) (broadcastInDim S128 ![] bcast_S_S128 (constant S_ .f32 0x47435000#32))

/-- `z` less its column means (the means taken as a row and spread over the rows). -/
def centred (z : (⟨S50000x128, .f32⟩ : BufTy).Contents (Elt F)) : (⟨S50000x128, .f32⟩ : BufTy).Contents (Elt F) :=
  subf z (broadcastInDim S50000x128 ![0, 1] bcast_S1x128_S50000x128_0_1
    (Host.divf (broadcastInDim S1x128 ![1] bcast_S128_S1x128_1 (colSum z))
      (broadcastInDim S1x128 ![] bcast_S_S1x128 (constant S_ .f32 0x47435000#32))))

/-- The variance's divisor: the row count less the (zero) degrees of freedom removed. -/
def dof : (⟨S_, .f32⟩ : BufTy).Contents (Elt F) :=
  subf (constant S_ .f32 0x47435000#32) (sitofp .f32 (constantI S_ 32 0#32))

/-- The column variances: the column sums of the squared centred values over the divisor, kept where the divisor
    is positive (elsewhere the not-a-number word). -/
def colVar (z : (⟨S50000x128, .f32⟩ : BufTy).Contents (Elt F)) : (⟨S128, .f32⟩ : BufTy).Contents (Elt F) :=
  select (broadcastInDim S128 ![] bcast_S_S128 (cmpf .ogt (dof (F := F)) (constant S_ .f32 0x00000000#32)))
    (Host.divf (Host.reduceAdd (mulf (centred z) (centred z)) (constant S_ .f32 0x00000000#32) reducesTo_S50000x128_S128_d0 h_S_)
      (broadcastInDim S128 ![] bcast_S_S128 (dof (F := F))))
    (broadcastInDim S128 ![] bcast_S_S128 (id (constant S_ .f32 0x7FC00000#32)))

/-! ## The three dense stages in the reference's own spelling -/

/-- Rows scaled: `a[r, d] · s[r]`, the vector `s` spread along the rows. -/
def rowScaled (a : (⟨S50000x128, .f32⟩ : BufTy).Contents (Elt F)) (s : (⟨S50000, .f32⟩ : BufTy).Contents (Elt F)) : (⟨S50000x128, .f32⟩ : BufTy).Contents (Elt F) :=
  mulf a (broadcastInDim S50000x128 ![0, 1] bcast_S50000x1_S50000x128_0_1 (broadcastInDim S50000x1 ![0] bcast_S50000_S50000x1_0 s))

/-- The affine stage: the row-scaled `agg` times `W`, plus the bias row. -/
def affine (agg : (⟨S50000x128, .f32⟩ : BufTy).Contents (Elt F)) (s : (⟨S50000, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none (rowScaled agg s) W)
    (broadcastInDim S50000x128 ![0, 1] bcast_S1x128_S50000x128_0_1 (broadcastInDim S1x128 ![1] bcast_S128_S1x128_1 b))

/-- A length-128 vector spread over the 50000 rows. -/
def overRows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The normalized, scaled and shifted value `γ · ((z − μ) · rsqrt(σ² + ε)) + β`. -/
def normalized (z : (⟨S50000x128, .f32⟩ : BufTy).Contents (Elt F)) (γ β μ σ2 : (⟨S128, .f32⟩ : BufTy).Contents (Elt F)) : (⟨S50000x128, .f32⟩ : BufTy).Contents (Elt F) :=
  addf (mulf (overRows γ) (mulf (subf z (overRows μ))
      (overRows (Host.rsqrt (addf σ2 (broadcastInDim S128 ![] bcast_S_S128 (constant S_ .f32 0x3727C5AC#32)))))))
    (overRows β)

/-- The last stage: the leaky rectifier of the normalized value (itself where it is at least zero, a fifth of it
    elsewhere) plus the residual `a`. -/
def finished (z a : (⟨S50000x128, .f32⟩ : BufTy).Contents (Elt F)) (γ β μ σ2 : (⟨S128, .f32⟩ : BufTy).Contents (Elt F)) : (⟨S50000x128, .f32⟩ : BufTy).Contents (Elt F) :=
  addf (select (cmpf .oge (normalized z γ β μ σ2) (broadcastInDim S50000x128 ![] bcast_S_S50000x128 (constant S_ .f32 0x00000000#32)))
      (normalized z γ β μ σ2)
      (mulf (broadcastInDim S50000x128 ![] bcast_S_S50000x128 (constant S_ .f32 0x3E4CCCCD#32)) (normalized z γ β μ σ2))) a

/-- The pre-normalization activations as a function of the arguments. -/
def preNorm (a0 : (⟨S50000x128, .f32⟩ : BufTy).Contents (Elt F)) (a1 : (⟨S128x128, .f32⟩ : BufTy).Contents (Elt F)) (a2 : (⟨S128, .f32⟩ : BufTy).Contents (Elt F))
    (a5 a6 : (⟨S800000, .i32⟩ : BufTy).Contents (Elt F)) : (⟨S50000x128, .f32⟩ : BufTy).Contents (Elt F) :=
  affine (neighbourSum (rowScaled a0 (invSqrtDeg a5)) a5 a6) (invSqrtDeg a6) a1 a2

/-- The whole result as a function of the arguments. -/
def result (a0 : (⟨S50000x128, .f32⟩ : BufTy).Contents (Elt F)) (a1 : (⟨S128x128, .f32⟩ : BufTy).Contents (Elt F)) (a2 a3 a4 : (⟨S128, .f32⟩ : BufTy).Contents (Elt F))
    (a5 a6 : (⟨S800000, .i32⟩ : BufTy).Contents (Elt F)) : (⟨S50000x128, .f32⟩ : BufTy).Contents (Elt F) :=
  finished (preNorm a0 a1 a2 a5 a6) a0 a3 a4 (colMean (preNorm a0 a1 a2 a5 a6)) (colVar (preNorm a0 a1 a2 a5 a6))

/-! ## The fold read at the result and at the arguments -/

attribute [local irreducible] Host.reduceAdd Host.gather Host.scatterAdd in
set_option maxHeartbeats 8000000 in
/-- The fold at the result's buffer is `result` of the launch contents of the arguments: each operation's result
    read at its own buffer, every other buffer as it was. -/
theorem result_eq (V : Valuation τ sig (Elt F)) :
    after ops V (Proc.devRef .tc main_v57) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp
  rfl

set_option maxHeartbeats 8000000 in
theorem arg0_eq (V : Valuation τ sig (Elt F)) : after ops V (Proc.devRef .tc main_arg0) = V (Proc.devRef .tc main_arg0) := by
  after_results_simp
set_option maxHeartbeats 8000000 in
theorem arg1_eq (V : Valuation τ sig (Elt F)) : after ops V (Proc.devRef .tc main_arg1) = V (Proc.devRef .tc main_arg1) := by
  after_results_simp
set_option maxHeartbeats 8000000 in
theorem arg2_eq (V : Valuation τ sig (Elt F)) : after ops V (Proc.devRef .tc main_arg2) = V (Proc.devRef .tc main_arg2) := by
  after_results_simp
set_option maxHeartbeats 8000000 in
theorem arg3_eq (V : Valuation τ sig (Elt F)) : after ops V (Proc.devRef .tc main_arg3) = V (Proc.devRef .tc main_arg3) := by
  after_results_simp
set_option maxHeartbeats 8000000 in
theorem arg4_eq (V : Valuation τ sig (Elt F)) : after ops V (Proc.devRef .tc main_arg4) = V (Proc.devRef .tc main_arg4) := by
  after_results_simp
set_option maxHeartbeats 8000000 in
theorem arg5_eq (V : Valuation τ sig (Elt F)) : after ops V (Proc.devRef .tc main_arg5) = V (Proc.devRef .tc main_arg5) := by
  after_results_simp
set_option maxHeartbeats 8000000 in
theorem arg6_eq (V : Valuation τ sig (Elt F)) : after ops V (Proc.devRef .tc main_arg6) = V (Proc.devRef .tc main_arg6) := by
  after_results_simp

/-- The reference's run, read: the result at `result` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v57).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_all m ρ)

end Cert.ReferenceIdeal.HostRun

end
-- ==== Proof.RowScale.lean ====
import proofs.«158064_j74947179316229_1_alg».proof.Proof.Gen.KernelIdeal.Frame
import proofs.«158064_j74947179316229_1_alg».proof.Proof.Gen.ReferenceIdeal
import Idealize.ShloMosaic.Lib.Pipeline.Value
import Idealize.ShloMosaic.Lib.ValueIdx
import Idealize.ShloMosaic.Lib.ValueLayout

/-! # Region 0: the row-scaled array

The first region multiplies each row of a `[50000, 128]` array by one number, the entry of a `[50000, 1]` column in the
same row, block of 5000 rows by block of 5000 rows. Read index by index every block is the restriction of ONE function of
the two arrays, `rowScaled a col (r, d) = a (r, d) * col (r, 0)`; the ten blocks tile the array, so the array the region
leaves is that function. When the column is a length-50000 vector reshaped to `[50000, 1]`, the same function is the
product of the array with the vector broadcast first to a column and then along the rows: both read the vector at `r`. -/

noncomputable section

open Idealize.ShloMosaic Idealize.ShloMosaic.TcCoe Idealize.SL.Sem
open Idealize.ShloMosaic.Pipeline (Dat)
open Idealize.ShloMosaic.ValueIdx

namespace Cert.RowScale

open Cert.KernelIdeal Cert.KernelIdeal.Gen

/-- The body's one store starts at the block's origin. -/
theorem origin_zero : (![0, 0] : Fin 2 → Nat) = fun _ => 0 := funext fun a => by fin_cases a <;> rfl

/-- The single column entry of row `r` of a `[50000, 1]` array. -/
abbrev colIdx (r : Fin 50000) : S50000x1.Idx := ix2 r (0 : Fin 1)

/-- Row scaling as one function of the two arrays: entry `(r, d)` of `a` times the entry of the column `col` in row `r`. -/
def rowScaled (a : S50000x128.Idx → Elt Ideal .f32) (col : S50000x1.Idx → Elt Ideal .f32) : S50000x128.Idx → Elt Ideal .f32 :=
  fun i => a i * col (colIdx ⟨(i 0).val, idx2_lt0 i⟩)

/-- The body's payload at an index of the block: the block's entry times the column block's entry in the same row. -/
theorem payload_apply (x0 : Vec Ideal S5000x128 .f32) (x1 : Vec Ideal S5000x1 .f32) (j : S5000x128.Idx) :
    k0_pay1 x0 x1 j = x0 j * x1 (ix2 (⟨(j 0).val, idx2_lt0 j⟩ : Fin 5000) (0 : Fin 1)) := by
  unfold k0_pay1
  show x0 j * broadcastTo S5000x128 (shapeCast S5000x1 x1 shapeCasts_S5000x1_S5000x1) broadcasts_S5000x1_S5000x128 j = _
  rw [shapeCast_self]
  refine congrArg (x0 j * ·) ?_
  refine broadcastTo_apply x1 broadcasts_S5000x1_S5000x128 j _ fun a => ?_
  match a with
  | ⟨0, _⟩ => rfl
  | ⟨1, _⟩ => rfl

/-- One entry of the row-scaled array from the two entries it is made of, with the indices as hypotheses. -/
theorem rowScaled_of_entries (A : S50000x128.Idx → Elt Ideal .f32) (C : S50000x1.Idx → Elt Ideal .f32)
    (i0 i2 : S50000x128.Idx) (k : S50000x1.Idx) (h0 : i0 = i2) (h1 : k = colIdx ⟨(i2 0).val, idx2_lt0 i2⟩) :
    A i0 * C k = rowScaled A C i2 := by
  subst h0 h1; rfl

/-- The reciprocal-root vector reshaped to a column reads, in row `r`, the vector at `r`: both positions are `r` in row-major order. -/
theorem column_apply (rs : FVec Ideal S50000 .f32) (r : Fin 50000) :
    shapeCast S50000x1 rs shapeCasts_S50000_S50000x1 (colIdx r) = rs (ix1 r) :=
  shapeCast_apply rs shapeCasts_S50000_S50000x1 (colIdx r) (ix1 r) (by
    rw [Shape.rowMajor_val_one, Shape.rowMajor_val_two]
    show r.val = r.val * 1 + 0
    omega)

/-- The reference's product at an index: the vector broadcast to a column and then along the rows reads, at `(r, d)`,
    the vector at `r`. -/
theorem reference_apply (a : FVec Ideal Cert.ReferenceIdeal.S50000x128 .f32) (rs : FVec Ideal Cert.ReferenceIdeal.S50000 .f32)
    (i : Cert.ReferenceIdeal.S50000x128.Idx) :
    mulf a (broadcastInDim Cert.ReferenceIdeal.S50000x128 ![0, 1] Cert.ReferenceIdeal.Gen.bcast_S50000x1_S50000x128_0_1
        (broadcastInDim Cert.ReferenceIdeal.S50000x1 ![0] Cert.ReferenceIdeal.Gen.bcast_S50000_S50000x1_0 rs)) i
      = a i * rs (ix1 (⟨(i 0).val, idx2_lt0 i⟩ : Fin 50000)) := by
  show a i * _ = _
  refine congrArg (a i * ·) ?_
  refine (broadcastInDim_apply _ _ _ i (colIdx ⟨(i 0).val, idx2_lt0 i⟩) fun ax => ?_).trans ?_
  · match ax with
    | ⟨0, _⟩ => rfl
    | ⟨1, _⟩ => rfl
  · refine broadcastInDim_apply _ _ rs _ (ix1 (⟨(i 0).val, idx2_lt0 i⟩ : Fin 50000)) fun ax => ?_
    match ax with
    | ⟨0, _⟩ => rfl

/-- Row scaling by the reshaped vector is the reference's product with the twice-broadcast vector: at `(r, d)` both are
    `a (r, d)` times the vector at `r`. -/
theorem rowScaled_column (a : FVec Ideal Cert.ReferenceIdeal.S50000x128 .f32) (rs : FVec Ideal Cert.ReferenceIdeal.S50000 .f32) :
    rowScaled a (shapeCast S50000x1 rs shapeCasts_S50000_S50000x1)
      = mulf a (broadcastInDim Cert.ReferenceIdeal.S50000x128 ![0, 1] Cert.ReferenceIdeal.Gen.bcast_S50000x1_S50000x128_0_1
          (broadcastInDim Cert.ReferenceIdeal.S50000x1 ![0] Cert.ReferenceIdeal.Gen.bcast_S50000_S50000x1_0 rs)) := by
  funext i
  refine Eq.trans ?_ (reference_apply a rs i).symm
  exact congrArg (a i * ·) (column_apply rs ⟨(i 0).val, idx2_lt0 i⟩)

section Region
variable (V : (c : Dev nD) → (b : Ref sig .tc) → Buf (Elt Ideal) ((c : Thread nD τ).loc b))

/-- The three printed index maps over the grid: the two inputs' blocks move with the output's, whose row-block index is
    the point's number and whose column-block index is 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the row-scaled array. -/
theorem flushed_eq (c : Dev nD) (t : Fin cfg0.N) :
    (dat0 V c).flushed 2 t = ((cfg0.win 2).blk t).view.read (Elt Ideal) (rowScaled (V c main_arg0) (V c main_v12)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S5000x1) origin_zero]
  obtain ⟨e0, e1, e2, e3, e4, e5⟩ := index_facts t
  funext j
  refine (payload_apply (iblk0 V c 0 t) (iblk0 V c 1 t) j).trans ?_
  refine rowScaled_of_entries (V c main_arg0) (V c main_v12) (((cfg0.win 0).blk t).view.emb j) (((cfg0.win 2).blk t).view.emb j)
    (((cfg0.win 1).blk t).view.emb (ix2 (⟨(j 0).val, idx2_lt0 j⟩ : Fin 5000) (0 : Fin 1))) ?_ ?_
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  · funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An index of the array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- The ten row blocks tile the array: row `r` lies in the block of point `r / 5000`. -/
theorem covered (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := N_0
  have ht : (i 0).val / 5000 < cfg0.N := by rw [hN]; omega
  obtain ⟨e0, e1, e2, e3, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e4]
    omega

/-- The array region 0 leaves: the row-scaled array of the two arrays it read. -/
theorem arr_eq_rowScaled (c : Dev nD) :
    (dat0 V c).arrAt 2 cfg0.N = rowScaled (V c main_arg0) (V c main_v12) :=
  (dat0 V c).arrAt_eq_of_cover 2 (rowScaled (V c main_arg0) (V c main_v12)) (fun t _ => flushed_eq V c t) covered

end Region

/-- REGION 0: with the feature array and the reshaped reciprocal-root vector in its two input arrays, the array the
    region leaves after its ten points is the reference's row-scaled array, term for term. -/
theorem region0_eq (V : (c : Dev nD) → (b : Ref sig .tc) → Buf (Elt Ideal) ((c : Thread nD τ).loc b)) (c : Dev nD)
    (a : FVec Ideal Cert.ReferenceIdeal.S50000x128 .f32) (rs : FVec Ideal Cert.ReferenceIdeal.S50000 .f32)
    (ha : V c main_arg0 = a) (hs : V c main_v12 = shapeCast S50000x1 rs shapeCasts_S50000_S50000x1) :
    (dat0 (F := Ideal) V c).arrAt 2 cfg0.N
      = mulf a (broadcastInDim Cert.ReferenceIdeal.S50000x128 ![0, 1] Cert.ReferenceIdeal.Gen.bcast_S50000x1_S50000x128_0_1
          (broadcastInDim Cert.ReferenceIdeal.S50000x1 ![0] Cert.ReferenceIdeal.Gen.bcast_S50000_S50000x1_0 rs)) :=
  (arr_eq_rowScaled V c).trans ((congrArg₂ rowScaled ha hs).trans (rowScaled_column a rs))

end Cert.RowScale

end
-- ==== Proof.RowAffine.lean ====
/- The array the matmul region leaves, as one whole-array function: with the aggregate, the per-row scale (a column),
   the weight and the bias (a row) as the region finds them, every row block's payload is the same rows of
   (aggregate · scale) @ weight + bias, the ten row blocks tile the array, and that whole-array function is the
   reference's own term (rows scaled, dot_general, bias added), index by index: ∑ₖ (a[r,k] · s[r]) · w[k,d] + β[d]. -/
import proofs.«158064_j74947179316229_1_alg».proof.Proof.Gen.KernelIdeal
import proofs.«158064_j74947179316229_1_alg».proof.Proof.Gen.ReferenceIdeal
import proofs.«158064_j74947179316229_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.RowAffine

open Idealize.ShloMosaic Idealize.ShloMosaic.TcCoe Idealize.SL.Sem
open Idealize.ShloMosaic.Pipeline (Dat)
open Idealize.ShloMosaic.ValueIdx
open Cert.KernelIdeal Cert.KernelIdeal.Gen

/-! ## The affine map, row by row -/

/-- Entry (r, d) of the row-scaled affine map: ∑ₖ (a[r,k] · s[r,0]) · w[k,d] + β[0,d]. The sum stays a `Finset.sum`. -/
def entry {n : Nat} (a : (⟨2, ![n, 128]⟩ : Shape).Idx → EReal) (s : (⟨2, ![n, 1]⟩ : Shape).Idx → EReal)
    (w : (⟨2, ![128, 128]⟩ : Shape).Idx → EReal) (β : (⟨2, ![1, 128]⟩ : Shape).Idx → EReal) (r : Fin n) (d : Fin 128) : EReal :=
  (∑ k : Fin 128, (a (ix2 r k) * s (ix2 r (0 : Fin 1))) * w (ix2 k d)) + β (ix2 (0 : Fin 1) d)

/-- The whole array of those entries. -/
def rowAffine (a : FVec Ideal S50000x128 .f32) (s : FVec Ideal S50000x1 .f32) (w : FVec Ideal S128x128 .f32)
    (β : FVec Ideal S1x128 .f32) : FVec Ideal S50000x128 .f32 :=
  fun i => entry (n := 50000) a s w β ⟨(i 0).val, idx2_lt0 i⟩ ⟨(i 1).val, idx2_lt1 i⟩

/-! ## The block product's operand indices -/

/-- The left operand of a row block's product is read at (row, contraction coordinate). -/
theorem blockDot_lhs (r : Fin 5000) (d : Fin 128) (k : Fin 128) :
    dot_S5000x128_S128x128_S5000x128_1_0_0_1_n_n.lhsIdx (ix2 r d)
      ((contrEquiv1 dot_S5000x128_S128x128_S5000x128_1_0_0_1_n_n 128 rfl rfl).symm k) = ix2 r k := by
  have hk := contrEquiv1_symm_val dot_S5000x128_S128x128_S5000x128_1_0_0_1_n_n 128 rfl rfl k
  funext a; apply Fin.ext
  match a with
  | ⟨0, _⟩ =>
    show (dot_S5000x128_S128x128_S5000x128_1_0_0_1_n_n.lhsIdx (ix2 r d) _ (0 : Fin S5000x128.rank)).val = r.val
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  | ⟨1, _⟩ =>
    exact (dot_S5000x128_S128x128_S5000x128_1_0_0_1_n_n.lhsIdx_val_of_single (cl := (1 : Fin S5000x128.rank)) rfl (ix2 r d) _).trans hk

/-- The right operand is read at (contraction coordinate, column). -/
theorem blockDot_rhs (r : Fin 5000) (d : Fin 128) (k : Fin 128) :
    dot_S5000x128_S128x128_S5000x128_1_0_0_1_n_n.rhsIdx (ix2 r d)
      ((contrEquiv1 dot_S5000x128_S128x128_S5000x128_1_0_0_1_n_n 128 rfl rfl).symm k) = ix2 k d := by
  have hk := contrEquiv1_symm_val dot_S5000x128_S128x128_S5000x128_1_0_0_1_n_n 128 rfl rfl k
  funext a; apply Fin.ext
  match a with
  | ⟨0, _⟩ =>
    exact (dot_S5000x128_S128x128_S5000x128_1_0_0_1_n_n.rhsIdx_val_of_single (cr := (0 : Fin S128x128.rank)) rfl (ix2 r d) _).trans hk
  | ⟨1, _⟩ =>
    show (dot_S5000x128_S128x128_S5000x128_1_0_0_1_n_n.rhsIdx (ix2 r d) _ (1 : Fin S128x128.rank)).val = d.val
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-! ## The body's payload at an index -/

/-- A block's payload at (r, d) is the entry of the affine map of the four loaded blocks. -/
theorem payload_apply (x0 : Vec Ideal S5000x128 .f32) (x1 : Vec Ideal S5000x1 .f32) (x2 : Vec Ideal S128x128 .f32)
    (x3 : Vec Ideal S1x128 .f32) (r : Fin 5000) (d : Fin 128) :
    k1_pay1 (F := Ideal) x0 x1 x2 x3 (ix2 r d) = entry (n := 5000) x0 x1 x2 x3 r d := by
  unfold k1_pay1 entry
  simp only [shapeCast_self]
  refine congrArg₂ (· + ·) ?_ (broadcastTo_1b_ab_apply x3 _ r d)
  refine (Ideal.matmul_constant_zero_apply _ none _ x2 (ix2 r d)).trans ?_
  rw [← Equiv.sum_comp (contrEquiv1 dot_S5000x128_S128x128_S5000x128_1_0_0_1_n_n 128 rfl rfl).symm]
  refine Finset.sum_congr rfl fun k _ => ?_
  rw [blockDot_lhs, blockDot_rhs]
  refine congrArg (· * x2 (ix2 k d)) ?_
  refine congrArg (x0 (ix2 r k) * ·) ?_
  refine broadcastTo_apply x1 _ (ix2 r k) (ix2 r (0 : Fin 1)) fun ax => ?_
  match ax with
  | ⟨0, _⟩ => rfl
  | ⟨1, _⟩ => rfl

/-! ## Blocks as rows of the arrays -/

/-- Congruence of `entry`: equal operands where the entry reads them give equal entries. -/
theorem entry_congr {n n' : Nat} (a : (⟨2, ![n, 128]⟩ : Shape).Idx → EReal) (s : (⟨2, ![n, 1]⟩ : Shape).Idx → EReal)
    (w : (⟨2, ![128, 128]⟩ : Shape).Idx → EReal) (β : (⟨2, ![1, 128]⟩ : Shape).Idx → EReal)
    (a' : (⟨2, ![n', 128]⟩ : Shape).Idx → EReal) (s' : (⟨2, ![n', 1]⟩ : Shape).Idx → EReal)
    (w' : (⟨2, ![128, 128]⟩ : Shape).Idx → EReal) (β' : (⟨2, ![1, 128]⟩ : Shape).Idx → EReal)
    (r : Fin n) (d : Fin 128) (r' : Fin n') (d' : Fin 128)
    (ha : ∀ k : Fin 128, a (ix2 r k) = a' (ix2 r' k)) (hs : s (ix2 r (0 : Fin 1)) = s' (ix2 r' (0 : Fin 1)))
    (hw : ∀ k : Fin 128, w (ix2 k d) = w' (ix2 k d')) (hβ : β (ix2 (0 : Fin 1) d) = β' (ix2 (0 : Fin 1) d')) :
    entry a s w β r d = entry a' s' w' β' r' d' := by
  unfold entry
  rw [hs, hβ]
  exact congrArg (· + β' (ix2 (0 : Fin 1) d')) (Finset.sum_congr rfl fun k _ => by rw [ha k, hw k])

theorem hz : (![0, 0] : Fin 2 → Nat) = fun _ => 0 := funext fun a => by fin_cases a <;> rfl

/-- The printed index maps over the grid: windows 0, 1 and the output move with the point along the rows; the weight and
    the bias row stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Window 0's block at point t, row r, is row 5000·t + r of its array. -/
theorem block0_apply (c : Dev nD) (t : Fin cfg1.N) (r : Fin 5000) (k : Fin 128) (r' : Fin 50000)
    (hr : r'.val = t.val * 5000 + r.val) :
    (iblk1 V c 0 t : Vec Ideal S5000x128 .f32) (ix2 r k) = (V c main_v25 : S50000x128.Idx → EReal) (ix2 r' k) := by
  obtain ⟨e00, e01, -⟩ := idx_facts t
  unfold iblk1
  show V c main_v25 (((cfg1.win 0).blk t).view.emb (ix2 r k)) = V c main_v25 (ix2 r' k)
  refine congrArg (V c main_v25) (funext fun a => Fin.ext ?_)
  match a with
  | ⟨0, _⟩ => show win1_0.index t (0 : Fin 2) * 5000 + 1 * r.val = r'.val; omega
  | ⟨1, _⟩ => show win1_0.index t (1 : Fin 2) * 128 + 1 * k.val = k.val; omega

/-- Window 1's block at point t, row r, is row 5000·t + r of its one-column array. -/
theorem block1_apply (c : Dev nD) (t : Fin cfg1.N) (r : Fin 5000) (r' : Fin 50000)
    (hr : r'.val = t.val * 5000 + r.val) :
    (iblk1 V c 1 t : Vec Ideal S5000x1 .f32) (ix2 r (0 : Fin 1)) = (V c main_v14 : S50000x1.Idx → EReal) (ix2 r' (0 : Fin 1)) := by
  obtain ⟨-, -, e10, e11, -⟩ := idx_facts t
  unfold iblk1
  show V c main_v14 (((cfg1.win 1).blk t).view.emb (ix2 r (0 : Fin 1))) = V c main_v14 (ix2 r' (0 : Fin 1))
  refine congrArg (V c main_v14) (funext fun a => Fin.ext ?_)
  match a with
  | ⟨0, _⟩ => show win1_1.index t (0 : Fin 2) * 5000 + 1 * r.val = r'.val; omega
  | ⟨1, _⟩ => show win1_1.index t (1 : Fin 2) * 1 + 1 * 0 = 0; omega

/-- Window 2's block is the whole weight matrix at every point. -/
theorem block2_apply (c : Dev nD) (t : Fin cfg1.N) (k : Fin 128) (d d' : Fin 128) (hd : d'.val = d.val) :
    (iblk1 V c 2 t : Vec Ideal S128x128 .f32) (ix2 k d) = (V c main_arg1 : S128x128.Idx → EReal) (ix2 k d') := by
  obtain ⟨-, -, -, -, e20, e21, -⟩ := idx_facts t
  unfold iblk1
  show V c main_arg1 (((cfg1.win 2).blk t).view.emb (ix2 k d)) = V c main_arg1 (ix2 k d')
  refine congrArg (V c main_arg1) (funext fun a => Fin.ext ?_)
  match a with
  | ⟨0, _⟩ => show win1_2.index t (0 : Fin 2) * 128 + 1 * k.val = k.val; omega
  | ⟨1, _⟩ => show win1_2.index t (1 : Fin 2) * 128 + 1 * d.val = d'.val; omega

/-- Window 3's block is the whole bias row at every point. -/
theorem block3_apply (c : Dev nD) (t : Fin cfg1.N) (d d' : Fin 128) (hd : d'.val = d.val) :
    (iblk1 V c 3 t : Vec Ideal S1x128 .f32) (ix2 (0 : Fin 1) d) = (V c main_v26 : S1x128.Idx → EReal) (ix2 (0 : Fin 1) d') := by
  obtain ⟨-, -, -, -, -, -, e30, e31, -⟩ := idx_facts t
  unfold iblk1
  show V c main_v26 (((cfg1.win 3).blk t).view.emb (ix2 (0 : Fin 1) d)) = V c main_v26 (ix2 (0 : Fin 1) d')
  refine congrArg (V c main_v26) (funext fun a => Fin.ext ?_)
  match a with
  | ⟨0, _⟩ => show win1_3.index t (0 : Fin 2) * 1 + 1 * 0 = 0; omega
  | ⟨1, _⟩ => show win1_3.index t (1 : Fin 2) * 128 + 1 * d.val = d'.val; omega

/-- The payload of point t's blocks at (r, d) is entry (5000·t + r, d) of the affine map of the four arrays. -/
theorem block_entry (c : Dev nD) (t : Fin cfg1.N) (r : Fin 5000) (d : Fin 128) (r' : Fin 50000) (d' : Fin 128)
    (hr : r'.val = t.val * 5000 + r.val) (hd : d'.val = d.val) :
    k1_pay1 (F := Ideal) (iblk1 V c 0 t) (iblk1 V c 1 t) (iblk1 V c 2 t) (iblk1 V c 3 t) (ix2 r d)
      = entry (n := 50000) (V c main_v25) (V c main_v14) (V c main_arg1) (V c main_v26) r' d' :=
  (payload_apply (iblk1 V c 0 t) (iblk1 V c 1 t) (iblk1 V c 2 t) (iblk1 V c 3 t) r d).trans
    (entry_congr (iblk1 V c 0 t) (iblk1 V c 1 t) (iblk1 V c 2 t) (iblk1 V c 3 t)
      (V c main_v25) (V c main_v14) (V c main_arg1) (V c main_v26) r d r' d'
      (fun k => block0_apply V c t r k r' hr) (block1_apply V c t r r' hr)
      (fun k => block2_apply V c t k d d' hd) (block3_apply V c t d d' hd))

/-! ## From blocks to the array -/

/-- What point t writes back is block t of the affine map of the arrays as the region finds them. -/
theorem flushed_eq (c : Dev nD) (t : Fin cfg1.N) :
    (dat1 (F := Ideal) V c).flushed 4 t = ((cfg1.win 4).blk t).view.read (Elt Ideal)
      (rowAffine (V c main_v25) (V c main_v14) (V c main_arg1) (V c main_v26)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, e40, e41⟩ := idx_facts t
  funext j
  have hj0 : (j 0).val < 5000 := (j 0).isLt
  have hj1 : (j 1).val < 128 := (j 1).isLt
  have hj : (j : S5000x128.Idx) = ix2 (⟨(j 0).val, hj0⟩ : Fin 5000) (⟨(j 1).val, hj1⟩ : Fin 128) :=
    funext fun a => match a with | ⟨0, _⟩ => rfl | ⟨1, _⟩ => rfl
  have hr : (((cfg1.win 4).blk t).view.emb j (0 : Fin 2)).val = t.val * 5000 + (j 0).val := by
    show win1_4.index t (0 : Fin 2) * 5000 + 1 * (j 0).val = _; omega
  have hd : (((cfg1.win 4).blk t).view.emb j (1 : Fin 2)).val = (j 1).val := by
    show win1_4.index t (1 : Fin 2) * 128 + 1 * (j 1).val = _; omega
  exact (congrArg (k1_pay1 (F := Ideal) (iblk1 V c 0 t) (iblk1 V c 1 t) (iblk1 V c 2 t) (iblk1 V c 3 t)) hj).trans
    (block_entry V c t ⟨(j 0).val, hj0⟩ ⟨(j 1).val, hj1⟩
      ⟨(((cfg1.win 4).blk t).view.emb j (0 : Fin 2)).val, (((cfg1.win 4).blk t).view.emb j (0 : Fin 2)).isLt⟩
      ⟨(((cfg1.win 4).blk t).view.emb j (1 : Fin 2)).val, (((cfg1.win 4).blk t).view.emb j (1 : Fin 2)).isLt⟩ hr hd)

/-- An index of the array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- The ten row blocks tile the array: row r lies in the block of point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the ten points the output array is the affine map of the arrays the region found. -/
theorem arrAt_eq (c : Dev nD) :
    (dat1 (F := Ideal) V c).arrAt 4 cfg1.N = rowAffine (V c main_v25) (V c main_v14) (V c main_arg1) (V c main_v26) :=
  (dat1 (F := Ideal) V c).arrAt_eq_of_cover 4 (rowAffine (V c main_v25) (V c main_v14) (V c main_arg1) (V c main_v26))
    (fun t _ => flushed_eq V c t) cover

/-! ## The whole-array product's operand indices -/

/-- The left operand of the whole-array product is read at (row, contraction coordinate). -/
theorem wholeDot_lhs (r : Fin 50000) (d : Fin 128) (k : Fin 128) :
    Cert.ReferenceIdeal.dot_S50000x128_S128x128_S50000x128_1_0_0_1_n_n.lhsIdx (ix2 r d)
      ((contrEquiv1 Cert.ReferenceIdeal.dot_S50000x128_S128x128_S50000x128_1_0_0_1_n_n 128 rfl rfl).symm k) = ix2 r k := by
  have hk := contrEquiv1_symm_val Cert.ReferenceIdeal.dot_S50000x128_S128x128_S50000x128_1_0_0_1_n_n 128 rfl rfl k
  funext a; apply Fin.ext
  match a with
  | ⟨0, _⟩ =>
    show (Cert.ReferenceIdeal.dot_S50000x128_S128x128_S50000x128_1_0_0_1_n_n.lhsIdx (ix2 r d) _
      (0 : Fin Cert.ReferenceIdeal.S50000x128.rank)).val = r.val
    unfold DotDims.lhsIdx
    rw [dif_neg (show ¬(0 : Fin Cert.ReferenceIdeal.S50000x128.rank)
        ∈ Cert.ReferenceIdeal.dot_S50000x128_S128x128_S50000x128_1_0_0_1_n_n.lhsBatch by decide),
      dif_pos (show (0 : Fin Cert.ReferenceIdeal.S50000x128.rank)
        ∈ Cert.ReferenceIdeal.dot_S50000x128_S128x128_S50000x128_1_0_0_1_n_n.lhsNonContracting by decide)]
    rfl
  | ⟨1, _⟩ =>
    exact (Cert.ReferenceIdeal.dot_S50000x128_S128x128_S50000x128_1_0_0_1_n_n.lhsIdx_val_of_single
      (cl := (1 : Fin Cert.ReferenceIdeal.S50000x128.rank)) rfl (ix2 r d) _).trans hk

/-- The right operand is read at (contraction coordinate, column). -/
theorem wholeDot_rhs (r : Fin 50000) (d : Fin 128) (k : Fin 128) :
    Cert.ReferenceIdeal.dot_S50000x128_S128x128_S50000x128_1_0_0_1_n_n.rhsIdx (ix2 r d)
      ((contrEquiv1 Cert.ReferenceIdeal.dot_S50000x128_S128x128_S50000x128_1_0_0_1_n_n 128 rfl rfl).symm k) = ix2 k d := by
  have hk := contrEquiv1_symm_val Cert.ReferenceIdeal.dot_S50000x128_S128x128_S50000x128_1_0_0_1_n_n 128 rfl rfl k
  funext a; apply Fin.ext
  match a with
  | ⟨0, _⟩ =>
    exact (Cert.ReferenceIdeal.dot_S50000x128_S128x128_S50000x128_1_0_0_1_n_n.rhsIdx_val_of_single
      (cr := (0 : Fin Cert.ReferenceIdeal.S128x128.rank)) rfl (ix2 r d) _).trans hk
  | ⟨1, _⟩ =>
    show (Cert.ReferenceIdeal.dot_S50000x128_S128x128_S50000x128_1_0_0_1_n_n.rhsIdx (ix2 r d) _
      (1 : Fin Cert.ReferenceIdeal.S128x128.rank)).val = d.val
    unfold DotDims.rhsIdx
    rw [dif_neg (show ¬(1 : Fin Cert.ReferenceIdeal.S128x128.rank)
        ∈ Cert.ReferenceIdeal.dot_S50000x128_S128x128_S50000x128_1_0_0_1_n_n.rhsBatch by decide),
      dif_pos (show (1 : Fin Cert.ReferenceIdeal.S128x128.rank)
        ∈ Cert.ReferenceIdeal.dot_S50000x128_S128x128_S50000x128_1_0_0_1_n_n.rhsNonContracting by decide)]
    rfl

/-! ## A vector as a column, and as a row -/

/-- A length-n vector broadcast to a column and then along the rows reads, at (r, k), the vector at r. -/
theorem bcast_col_apply (v : FVec Ideal Cert.ReferenceIdeal.S50000 .f32) (r : Fin 50000) (k : Fin 128) :
    broadcastInDim Cert.ReferenceIdeal.S50000x128 ![0, 1] Cert.ReferenceIdeal.Gen.bcast_S50000x1_S50000x128_0_1
        (broadcastInDim Cert.ReferenceIdeal.S50000x1 ![0] Cert.ReferenceIdeal.Gen.bcast_S50000_S50000x1_0 v) (ix2 r k)
      = v (ix1 r) := by
  refine (broadcastInDim_apply _ _ _ (ix2 r k) (ix2 r (0 : Fin 1)) fun a => ?_).trans
    (broadcastInDim_apply _ _ v (ix2 r (0 : Fin 1)) (ix1 r) fun a => ?_)
  · match a with
    | ⟨0, _⟩ => rfl
    | ⟨1, _⟩ => rfl
  · match a with
    | ⟨0, _⟩ => rfl

/-- The same vector reshaped to a column reads, at (r, 0), the vector at r. -/
theorem cast_col_apply (v : FVec Ideal S50000 .f32) (r : Fin 50000) :
    shapeCast S50000x1 v shapeCasts_S50000_S50000x1 (ix2 r (0 : Fin 1)) = v (ix1 r) :=
  shapeCast_apply v _ _ _ (by
    rw [Shape.rowMajor_val_two, Shape.rowMajor_val_one]
    show r.val = r.val * 1 + 0
    omega)

/-- A length-128 vector broadcast to a row and then down the rows reads, at (r, d), the vector at d. -/
theorem bcast_row_apply (v : FVec Ideal Cert.ReferenceIdeal.S128 .f32) (r : Fin 50000) (d : Fin 128) :
    broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 v) (ix2 r d)
      = v (ix1 d) := by
  refine (broadcastInDim_apply _ _ _ (ix2 r d) (ix2 (0 : Fin 1) d) fun a => ?_).trans
    (broadcastInDim_apply _ _ v (ix2 (0 : Fin 1) d) (ix1 d) fun a => ?_)
  · match a with
    | ⟨0, _⟩ => rfl
    | ⟨1, _⟩ => rfl
  · match a with
    | ⟨0, _⟩ => rfl

/-! ## The reference's term is the same map -/

/-- The whole-array term — scale the rows, multiply by the weight, add the bias row — is the affine map of the same
    arrays with the scale as a column and the bias as a row. -/
theorem reference_eq (agg : FVec Ideal Cert.ReferenceIdeal.S50000x128 .f32) (rs : FVec Ideal Cert.ReferenceIdeal.S50000 .f32)
    (W : FVec Ideal Cert.ReferenceIdeal.S128x128 .f32) (b : FVec Ideal Cert.ReferenceIdeal.S128 .f32) :
    addf (Host.dotGeneral Cert.ReferenceIdeal.dot_S50000x128_S128x128_S50000x128_1_0_0_1_n_n none
            (mulf agg (broadcastInDim Cert.ReferenceIdeal.S50000x128 ![0, 1] Cert.ReferenceIdeal.Gen.bcast_S50000x1_S50000x128_0_1
              (broadcastInDim Cert.ReferenceIdeal.S50000x1 ![0] Cert.ReferenceIdeal.Gen.bcast_S50000_S50000x1_0 rs))) W)
         (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 b))
      = rowAffine agg (shapeCast S50000x1 rs shapeCasts_S50000_S50000x1) W (shapeCast S1x128 b shapeCasts_S128_S1x128) := by
  funext i
  obtain ⟨r, d, rfl⟩ : ∃ (r : Fin 50000) (d : Fin 128), i = ix2 r d := ⟨i 0, i 1, eq_ix2 i⟩
  show FloatOps.dotGeneral Cert.ReferenceIdeal.dot_S50000x128_S128x128_S50000x128_1_0_0_1_n_n none .single
        (mulf agg (broadcastInDim Cert.ReferenceIdeal.S50000x128 ![0, 1] Cert.ReferenceIdeal.Gen.bcast_S50000x1_S50000x128_0_1
          (broadcastInDim Cert.ReferenceIdeal.S50000x1 ![0] Cert.ReferenceIdeal.Gen.bcast_S50000_S50000x1_0 rs))) W (ix2 r d)
      + broadcastInDim Cert.ReferenceIdeal.S50000x128 ![0, 1] Cert.ReferenceIdeal.Gen.bcast_S1x128_S50000x128_0_1
          (broadcastInDim Cert.ReferenceIdeal.S1x128 ![1] Cert.ReferenceIdeal.Gen.bcast_S128_S1x128_1 b) (ix2 r d)
      = entry (n := 50000) agg (shapeCast S50000x1 rs shapeCasts_S50000_S50000x1) W (shapeCast S1x128 b shapeCasts_S128_S1x128) r d
  unfold entry
  refine congrArg₂ (· + ·) ?_ ((bcast_row_apply b r d).trans (shapeCast_a_1a_apply b _ (0 : Fin 1) d).symm)
  refine (Ideal.dotGeneral_apply _ none .single _ W (ix2 r d)).trans ?_
  rw [← Equiv.sum_comp (contrEquiv1 Cert.ReferenceIdeal.dot_S50000x128_S128x128_S50000x128_1_0_0_1_n_n 128 rfl rfl).symm]
  refine Finset.sum_congr rfl fun k _ => ?_
  rw [wholeDot_lhs, wholeDot_rhs]
  refine congrArg (· * W (ix2 k d)) ?_
  exact congrArg (agg (ix2 r k) * ·) ((bcast_col_apply rs r k).trans (cast_col_apply rs r).symm)

/-! ## The region's output array is the reference's term -/

/-- With the region's four input arrays pinned — the aggregate, the scale reshaped to a column, the weight, the bias
    reshaped to a row — the array the ten points leave is the whole-array term: scale the rows, multiply by the weight,
    add the bias. -/
theorem region1_eq (c : Dev nD)
    (agg : FVec Ideal Cert.ReferenceIdeal.S50000x128 .f32) (rs : FVec Ideal Cert.ReferenceIdeal.S50000 .f32)
    (W : FVec Ideal Cert.ReferenceIdeal.S128x128 .f32) (b : FVec Ideal Cert.ReferenceIdeal.S128 .f32)
    (h0 : V c main_v25 = agg) (h1 : V c main_v14 = shapeCast S50000x1 rs shapeCasts_S50000_S50000x1)
    (h2 : V c main_arg1 = W) (h3 : V c main_v26 = shapeCast S1x128 b shapeCasts_S128_S1x128) :
    (dat1 (F := Ideal) V c).arrAt 4 cfg1.N
      = addf (Host.dotGeneral Cert.ReferenceIdeal.dot_S50000x128_S128x128_S50000x128_1_0_0_1_n_n none
                (mulf agg (broadcastInDim Cert.ReferenceIdeal.S50000x128 ![0, 1] Cert.ReferenceIdeal.Gen.bcast_S50000x1_S50000x128_0_1
                  (broadcastInDim Cert.ReferenceIdeal.S50000x1 ![0] Cert.ReferenceIdeal.Gen.bcast_S50000_S50000x1_0 rs))) W)
             (broadcastInDim Cert.ReferenceIdeal.S50000x128 ![0, 1] Cert.ReferenceIdeal.Gen.bcast_S1x128_S50000x128_0_1
                (broadcastInDim Cert.ReferenceIdeal.S1x128 ![1] Cert.ReferenceIdeal.Gen.bcast_S128_S1x128_1 b)) := by
  rw [arrAt_eq V c, h0, h1, h2, h3]
  exact (reference_eq agg rs W b).symm

end Cert.RowAffine

end
-- ==== Proof.NormAct.lean ====
/-
  The third region of the cell — batch-norm apply, leaky rectifier, residual — as ONE whole-array function, and that
  function as the reference's own operations.

  Each of the region's ten grid points loads a 5000-row block of `z` and of the residual, and the whole of four one-row
  arrays (scale γ, shift β, mean μ, variance σ², each a [128] vector reshaped to [1, 128]), and stores the block
  `select (y ≥ 0) y (0.2·y) + residual` with `y = γ·((z − μ)·rsqrt(σ² + ε)) + β`, the rows broadcast down the block.
  Every operation is pointwise, so element `(r, d)` of what a point stores depends only on the elements `(r, d)` of the two
  blocks and `(0, d)` of the four rows: `actAt (normAt …)` below. The ten blocks tile the [50000, 128] array (row `r` is in
  block `r / 5000`), so the array the region leaves is `normAct` of the arrays it found, index by index. The reference
  computes the same chain on whole arrays with `broadcast_in_dim` in place of reshape-and-broadcast and the host's
  reciprocal square root; on the extended reals these read, element by element, as the same operations of the same
  elements with the same three constant words.
-/
import proofs.«158064_j74947179316229_1_alg».proof.Proof.Gen.KernelIdeal.Frame
import proofs.«158064_j74947179316229_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost

noncomputable section

namespace Cert.NormAct

open Idealize.ShloMosaic Idealize.ShloMosaic.TcCoe Idealize.SL.Sem Idealize.ShloMosaic.ValueIdx
open Idealize.ShloMosaic.Pipeline (Dat)
open Cert.KernelIdeal Cert.KernelIdeal.Gen

/-! ## One element of the result -/

/-- One element of the normalised activation, `γ·((z − μ)·rsqrt(σ² + ε)) + β` on the extended reals. -/
def normAt (zz g b m v : Ideal .f32) : Ideal .f32 :=
  g * ((zz - m) * Ideal.rsqrt (v + Ideal.ofBits .f32 0x3727C5AC#32)) + b

/-- The leaky rectifier of slope 0.2 applied to `y`, plus the residual `aa`. -/
def actAt (y aa : Ideal .f32) : Ideal .f32 :=
  Scalar.select (FloatOps.cmpf .oge y (Ideal.ofBits .f32 0x00000000#32)) y (Ideal.ofBits .f32 0x3E4CCCCD#32 * y) + aa

/-- The whole result array as ONE function of the two full arrays and the four one-row arrays: element `(r, d)`
    is `actAt (normAt …)` of the arrays' elements at `(r, d)` and the rows' at `(0, d)`. -/
def normAct (z a : S50000x128.Idx → Ideal .f32) (g2 b2 m2 v2 : S1x128.Idx → Ideal .f32) : S50000x128.Idx → Ideal .f32 :=
  fun i => actAt (normAt (z i) (g2 (ix2 (0 : Fin 1) (i 1))) (b2 (ix2 (0 : Fin 1) (i 1))) (m2 (ix2 (0 : Fin 1) (i 1)))
    (v2 (ix2 (0 : Fin 1) (i 1)))) (a i)

/-! ## The body's payload, element by element -/

/-- The payload of the one store at element `(r, d)` of a block, over the loaded blocks as variables: the loads come
    in the order z, mean, variance, scale, shift, residual. -/
theorem payload_apply (x0 x1 : Vec Ideal S5000x128 .f32) (x2 x3 x4 x5 : Vec Ideal S1x128 .f32) (r : Fin 5000) (d : Fin 128) :
    k2_pay1 x0 x4 x5 x2 x3 x1 (ix2 r d)
      = actAt (normAt (x0 (ix2 r d)) (x2 (ix2 (0 : Fin 1) d)) (x3 (ix2 (0 : Fin 1) d)) (x4 (ix2 (0 : Fin 1) d))
          (x5 (ix2 (0 : Fin 1) d))) (x1 (ix2 r d)) := by
  unfold k2_pay1
  simp only [shapeCast_self, addf_apply, select_apply, cmpf_apply, mulf_apply, subf_apply, broadcast_apply,
    broadcastTo_1b_ab_apply]
  rfl

/-- The payload as a function of the block index. -/
theorem payload_eq (x0 x1 : Vec Ideal S5000x128 .f32) (x2 x3 x4 x5 : Vec Ideal S1x128 .f32) :
    k2_pay1 x0 x4 x5 x2 x3 x1
      = fun j : S5000x128.Idx => actAt (normAt (x0 j) (x2 (ix2 (0 : Fin 1) (j 1))) (x3 (ix2 (0 : Fin 1) (j 1)))
          (x4 (ix2 (0 : Fin 1) (j 1))) (x5 (ix2 (0 : Fin 1) (j 1)))) (x1 j) := by
  funext j
  obtain ⟨r, d, rfl⟩ : ∃ (r : Fin 5000) (d : Fin 128), j = ix2 r d := ⟨j 0, j 1, eq_ix2 j⟩
  exact payload_apply x0 x1 x2 x3 x4 x5 r d

/-! ## From the blocks to the array -/

/-- The zero offsets of a whole-buffer access, as a constant function. -/
theorem hz : (![0, 0] : Fin 2 → Nat) = fun _ => 0 := funext fun a => by fin_cases a <;> rfl

/-- The printed index maps over the ten grid points: the two full-array inputs move with the output (block row `t`,
    block column 0); the four one-row inputs stay at block (0, 0). -/
theorem index_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! Where each input block's element sits in its array, against the output block's element `j` at point `t`: a
    block's coordinate is always index × size + 1 × the coordinate inside the block. The two full-array inputs' blocks
    sit where the output's does; the one-row inputs are read at row 0 and the output element's column. -/

theorem emb_full0 (t : Fin cfg2.N) (j : ((cfg2.win 6).xblock (grid2.coords t)).Idx) :
    ((cfg2.win 0).blk t).view.emb j = ((cfg2.win 6).blk t).view.emb j := by
  obtain ⟨e60, e61, e00, e01, e10, e11, e20, e21, e30, e31, e40, e41, e50, e51⟩ := index_facts t
  funext a; apply Fin.ext
  match a with
  | ⟨0, _⟩ => show win2_0.index t (0 : Fin 2) * 5000 + 1 * (j 0).val = win2_6.index t (0 : Fin 2) * 5000 + 1 * (j 0).val; omega
  | ⟨1, _⟩ => show win2_0.index t (1 : Fin 2) * 128 + 1 * (j 1).val = win2_6.index t (1 : Fin 2) * 128 + 1 * (j 1).val; omega

theorem emb_full1 (t : Fin cfg2.N) (j : ((cfg2.win 6).xblock (grid2.coords t)).Idx) :
    ((cfg2.win 1).blk t).view.emb j = ((cfg2.win 6).blk t).view.emb j := by
  obtain ⟨e60, e61, e00, e01, e10, e11, e20, e21, e30, e31, e40, e41, e50, e51⟩ := index_facts t
  funext a; apply Fin.ext
  match a with
  | ⟨0, _⟩ => show win2_1.index t (0 : Fin 2) * 5000 + 1 * (j 0).val = win2_6.index t (0 : Fin 2) * 5000 + 1 * (j 0).val; omega
  | ⟨1, _⟩ => show win2_1.index t (1 : Fin 2) * 128 + 1 * (j 1).val = win2_6.index t (1 : Fin 2) * 128 + 1 * (j 1).val; omega

theorem emb_row2 (t : Fin cfg2.N) (j : ((cfg2.win 6).xblock (grid2.coords t)).Idx) :
    ((cfg2.win 2).blk t).view.emb (ix2 (n0 := 1) (n1 := 128) 0 (j 1))
      = ix2 (n0 := 1) (n1 := 128) 0 ((((cfg2.win 6).blk t).view.emb j) 1) := by
  obtain ⟨e60, e61, e00, e01, e10, e11, e20, e21, e30, e31, e40, e41, e50, e51⟩ := index_facts t
  funext a; apply Fin.ext
  match a with
  | ⟨0, _⟩ => show win2_2.index t (0 : Fin 2) * 1 + 1 * 0 = 0; omega
  | ⟨1, _⟩ => show win2_2.index t (1 : Fin 2) * 128 + 1 * (j 1).val = win2_6.index t (1 : Fin 2) * 128 + 1 * (j 1).val; omega

theorem emb_row3 (t : Fin cfg2.N) (j : ((cfg2.win 6).xblock (grid2.coords t)).Idx) :
    ((cfg2.win 3).blk t).view.emb (ix2 (n0 := 1) (n1 := 128) 0 (j 1))
      = ix2 (n0 := 1) (n1 := 128) 0 ((((cfg2.win 6).blk t).view.emb j) 1) := by
  obtain ⟨e60, e61, e00, e01, e10, e11, e20, e21, e30, e31, e40, e41, e50, e51⟩ := index_facts t
  funext a; apply Fin.ext
  match a with
  | ⟨0, _⟩ => show win2_3.index t (0 : Fin 2) * 1 + 1 * 0 = 0; omega
  | ⟨1, _⟩ => show win2_3.index t (1 : Fin 2) * 128 + 1 * (j 1).val = win2_6.index t (1 : Fin 2) * 128 + 1 * (j 1).val; omega

theorem emb_row4 (t : Fin cfg2.N) (j : ((cfg2.win 6).xblock (grid2.coords t)).Idx) :
    ((cfg2.win 4).blk t).view.emb (ix2 (n0 := 1) (n1 := 128) 0 (j 1))
      = ix2 (n0 := 1) (n1 := 128) 0 ((((cfg2.win 6).blk t).view.emb j) 1) := by
  obtain ⟨e60, e61, e00, e01, e10, e11, e20, e21, e30, e31, e40, e41, e50, e51⟩ := index_facts t
  funext a; apply Fin.ext
  match a with
  | ⟨0, _⟩ => show win2_4.index t (0 : Fin 2) * 1 + 1 * 0 = 0; omega
  | ⟨1, _⟩ => show win2_4.index t (1 : Fin 2) * 128 + 1 * (j 1).val = win2_6.index t (1 : Fin 2) * 128 + 1 * (j 1).val; omega

theorem emb_row5 (t : Fin cfg2.N) (j : ((cfg2.win 6).xblock (grid2.coords t)).Idx) :
    ((cfg2.win 5).blk t).view.emb (ix2 (n0 := 1) (n1 := 128) 0 (j 1))
      = ix2 (n0 := 1) (n1 := 128) 0 ((((cfg2.win 6).blk t).view.emb j) 1) := by
  obtain ⟨e60, e61, e00, e01, e10, e11, e20, e21, e30, e31, e40, e41, e50, e51⟩ := index_facts t
  funext a; apply Fin.ext
  match a with
  | ⟨0, _⟩ => show win2_5.index t (0 : Fin 2) * 1 + 1 * 0 = 0; omega
  | ⟨1, _⟩ => show win2_5.index t (1 : Fin 2) * 128 + 1 * (j 1).val = win2_6.index t (1 : Fin 2) * 128 + 1 * (j 1).val; omega

set_option maxHeartbeats 400000 in
/-- WHAT POINT `t` WRITES BACK is block `t` of `normAct` of the arrays as the region finds them. -/
theorem flushed_eq (V : (c : Dev nD) → (b : Ref sig .tc) → Buf (Elt Ideal) ((c : Thread nD τ).loc b)) (c : Dev nD)
    (t : Fin cfg2.N) :
    (dat2 (F := Ideal) V c).flushed 6 t = ((cfg2.win 6).blk t).view.read (Elt Ideal)
      (normAct (V c main_v27) (V c main_arg0) (V c main_v34) (V c main_v35) (V c main_v31) (V c main_v33)) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz]
  rw [payload_eq]
  funext j
  show actAt (normAt (V c main_v27 (((cfg2.win 0).blk t).view.emb j))
        (V c main_v34 (((cfg2.win 2).blk t).view.emb (ix2 (n0 := 1) (n1 := 128) 0 (j 1))))
        (V c main_v35 (((cfg2.win 3).blk t).view.emb (ix2 (n0 := 1) (n1 := 128) 0 (j 1))))
        (V c main_v31 (((cfg2.win 4).blk t).view.emb (ix2 (n0 := 1) (n1 := 128) 0 (j 1))))
        (V c main_v33 (((cfg2.win 5).blk t).view.emb (ix2 (n0 := 1) (n1 := 128) 0 (j 1)))))
        (V c main_arg0 (((cfg2.win 1).blk t).view.emb j))
    = actAt (normAt (V c main_v27 (((cfg2.win 6).blk t).view.emb j))
        (V c main_v34 (ix2 (n0 := 1) (n1 := 128) 0 ((((cfg2.win 6).blk t).view.emb j) 1)))
        (V c main_v35 (ix2 (n0 := 1) (n1 := 128) 0 ((((cfg2.win 6).blk t).view.emb j) 1)))
        (V c main_v31 (ix2 (n0 := 1) (n1 := 128) 0 ((((cfg2.win 6).blk t).view.emb j) 1)))
        (V c main_v33 (ix2 (n0 := 1) (n1 := 128) 0 ((((cfg2.win 6).blk t).view.emb j) 1))))
        (V c main_arg0 (((cfg2.win 6).blk t).view.emb j))
  rw [emb_full0 t j, emb_full1 t j, emb_row2 t j, emb_row3 t j, emb_row4 t j, emb_row5 t j]

/-- An index of the array is in point `t`'s block iff each coordinate is in the block's range on its axis. -/
theorem mem_block (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v36).slice (win2_6.rect t)).set ↔ _
  rw [View.set_slice_whole, Rect.mem_set_unit]
  exact Iff.rfl

/-- Every index of the array is in some point's block: row `r` is in the block of point `r / 5000`. -/
theorem covered (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_6 _, ?_⟩
  obtain ⟨e60, e61, -⟩ := index_facts ⟨(i 0).val / 5000, by rw [hN]; omega⟩
  rw [mem_block]
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win2_6.index ⟨(i 0).val / 5000, _⟩ (1 : Fin 2) * 128 ≤ (i 1).val ∧ (i 1).val < win2_6.index ⟨(i 0).val / 5000, _⟩ (1 : Fin 2) * 128 + 128
    rw [e61]; omega

/-- THE ARRAY the region leaves: `normAct` of the arrays it found. -/
theorem array_eq (V : (c : Dev nD) → (b : Ref sig .tc) → Buf (Elt Ideal) ((c : Thread nD τ).loc b)) (c : Dev nD) :
    (dat2 (F := Ideal) V c).arrAt 6 cfg2.N
      = normAct (V c main_v27) (V c main_arg0) (V c main_v34) (V c main_v35) (V c main_v31) (V c main_v33) :=
  (dat2 (F := Ideal) V c).arrAt_eq_of_cover 6 _ (fun t _ => flushed_eq V c t) covered

/-! ## The reference's operations -/

/-- The reference's normalised activation: its operations in its order, as whole-array host operations. -/
def refNorm (z : FVec Ideal Cert.ReferenceIdeal.S50000x128 .f32) (γ β μ σ2 : FVec Ideal Cert.ReferenceIdeal.S128 .f32) :
    FVec Ideal Cert.ReferenceIdeal.S50000x128 .f32 :=
  addf
    (mulf
      (broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 γ))
      (mulf
        (subf z
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 μ)))
        (broadcastInDim Cert.ReferenceIdeal.S50000x128 ![0, 1] Cert.ReferenceIdeal.Gen.bcast_S1x128_S50000x128_0_1
          (broadcastInDim Cert.ReferenceIdeal.S1x128 ![1] Cert.ReferenceIdeal.Gen.bcast_S128_S1x128_1
            (Host.rsqrt (F := Ideal)
              (addf σ2
                (broadcastInDim Cert.ReferenceIdeal.S128 ![] Cert.ReferenceIdeal.Gen.bcast_S_S128
                  (constant (F := Ideal) Cert.ReferenceIdeal.S_ .f32 0x3727C5AC#32))))))))
    (broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 β))

/-- The reference's result from the normalised activation on: compare with zero, scale by 0.2, select, add the residual. -/
def refTail (z a : FVec Ideal Cert.ReferenceIdeal.S50000x128 .f32) (γ β μ σ2 : FVec Ideal Cert.ReferenceIdeal.S128 .f32) :
    FVec Ideal Cert.ReferenceIdeal.S50000x128 .f32 :=
  addf
    (select
      (cmpf .oge (refNorm z γ β μ σ2)
        (broadcastInDim Cert.ReferenceIdeal.S50000x128 ![] Cert.ReferenceIdeal.Gen.bcast_S_S50000x128
          (constant (F := Ideal) Cert.ReferenceIdeal.S_ .f32 0x00000000#32)))
      (refNorm z γ β μ σ2)
      (mulf
        (broadcastInDim Cert.ReferenceIdeal.S50000x128 ![] Cert.ReferenceIdeal.Gen.bcast_S_S50000x128
          (constant (F := Ideal) Cert.ReferenceIdeal.S_ .f32 0x3E4CCCCD#32))
        (refNorm z γ β μ σ2)))
    a

/-- A vector laid as the one row of a `[1, n]` array (`broadcast_in_dim` along axis 1) reads, at `(u, d)`, the vector at `d`. -/
theorem broadcastInDim_row_apply {α : Type} {n : Nat} (h : (⟨1, ![n]⟩ : Shape).BroadcastsInDim ⟨2, ![1, n]⟩ ![1])
    (x : (⟨1, ![n]⟩ : Shape).Idx → α) (u : Fin 1) (d : Fin n) :
    broadcastInDim ⟨2, ![1, n]⟩ ![1] h x (ix2 u d) = x (ix1 d) := by
  refine broadcastInDim_apply ![1] h x (ix2 u d) (ix1 d) ?_
  intro a
  match a with
  | ⟨0, _⟩ =>
    show d.val = if n = 1 then 0 else d.val
    split
    · have := d.isLt; omega
    · rfl

/-- A vector broadcast to one row and then down all 50000 rows, as the reference writes it, reads at `(r, d)` the
    vector at `d`. -/
theorem rows_apply {α : Type} (x : Cert.ReferenceIdeal.S128.Idx → α) (r : Fin 50000) (d : Fin 128) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 x) (ix2 r d) = x (ix1 d) :=
  (broadcastInDim_oneRow_apply Cert.ReferenceIdeal.Gen.bcast_S1x128_S50000x128_0_1 _ r d).trans
    (broadcastInDim_row_apply Cert.ReferenceIdeal.Gen.bcast_S128_S1x128_1 x 0 d)

/-- The reference's term is `normAct` of the two full arrays and the four vectors reshaped to one row each: element by
    element both are the same operations of the same elements, the host's reciprocal square root and the kernel's one
    function on the extended reals, the same words for the three constants. -/
theorem normAct_eq_refTail (z a : FVec Ideal Cert.ReferenceIdeal.S50000x128 .f32) (γ β μ σ2 : FVec Ideal Cert.ReferenceIdeal.S128 .f32) :
    normAct z a (shapeCast S1x128 γ shapeCasts_S128_S1x128) (shapeCast S1x128 β shapeCasts_S128_S1x128)
        (shapeCast S1x128 μ shapeCasts_S128_S1x128) (shapeCast S1x128 σ2 shapeCasts_S128_S1x128)
      = refTail z a γ β μ σ2 := by
  funext i
  obtain ⟨r, d, rfl⟩ : ∃ (r : Fin 50000) (d : Fin 128), i = ix2 r d := ⟨i 0, i 1, eq_ix2 i⟩
  show actAt (normAt (z (ix2 r d)) (shapeCast S1x128 γ shapeCasts_S128_S1x128 (ix2 (0 : Fin 1) d))
        (shapeCast S1x128 β shapeCasts_S128_S1x128 (ix2 (0 : Fin 1) d))
        (shapeCast S1x128 μ shapeCasts_S128_S1x128 (ix2 (0 : Fin 1) d))
        (shapeCast S1x128 σ2 shapeCasts_S128_S1x128 (ix2 (0 : Fin 1) d))) (a (ix2 r d)) = _
  unfold refTail refNorm
  simp only [shapeCast_a_1a_apply, addf_apply, select_apply, cmpf_apply, mulf_apply, subf_apply]
  rw [rows_apply γ r d, rows_apply β r d, rows_apply μ r d, rows_apply _ r d]
  rfl

/-! ## The region's result -/

/-- The array the third region leaves after its ten points, when it finds `z` and the residual `a` in its two
    full-array inputs and the scale, shift, mean and variance vectors reshaped to one row each in the other four, is the
    reference's own term of those six. -/
theorem region2_eq (V : (c : Dev nD) → (b : Ref sig .tc) → Buf (Elt Ideal) ((c : Thread nD τ).loc b)) (c : Dev nD)
    (z a : FVec Ideal Cert.ReferenceIdeal.S50000x128 .f32) (γ β μ σ2 : FVec Ideal Cert.ReferenceIdeal.S128 .f32)
    (h0 : V c main_v27 = z) (h1 : V c main_arg0 = a)
    (h2 : V c main_v34 = shapeCast S1x128 γ shapeCasts_S128_S1x128)
    (h3 : V c main_v35 = shapeCast S1x128 β shapeCasts_S128_S1x128)
    (h4 : V c main_v31 = shapeCast S1x128 μ shapeCasts_S128_S1x128)
    (h5 : V c main_v33 = shapeCast S1x128 σ2 shapeCasts_S128_S1x128) :
    (dat2 (F := Ideal) V c).arrAt 6 cfg2.N = refTail z a γ β μ σ2 := by
  rw [array_eq V c, h0, h1, h2, h3, h4, h5]
  exact normAct_eq_refTail z a γ β μ σ2

end Cert.NormAct

end
-- ==== Proof.Bridge.lean ====
/- The two idealized programs compute one function of the arguments. The kernel's three regions leave, block by block,
   the arrays the reference computes whole — the row-scaled input, the affine stage, and the normalized and rectified
   output plus the residual — and between the regions both programs apply the same host chains (the degree factors,
   the neighbour sum, the column means and variances) to equal values. So the kernel's result array, read at the last
   boundary, is the reference's `result` of the launch contents of the arguments; the claims follow. -/
import proofs.«158064_j74947179316229_1_alg».proof.Defs
import proofs.«158064_j74947179316229_1_alg».proof.Proof.KernelRun
import proofs.«158064_j74947179316229_1_alg».proof.Proof.KernelBounds
import proofs.«158064_j74947179316229_1_alg».proof.Proof.RefRun
import proofs.«158064_j74947179316229_1_alg».proof.Proof.RowScale
import proofs.«158064_j74947179316229_1_alg».proof.Proof.RowAffine
import proofs.«158064_j74947179316229_1_alg».proof.Proof.NormAct
import proofs.«158064_j74947179316229_1_alg».proof.Proof.Gen.Kernel.Frame
import proofs.«158064_j74947179316229_1_alg».proof.Proof.Gen.Pre_finite_inputs

set_option maxRecDepth 16384

noncomputable section

namespace Cert.Proof.Whole

open Idealize.ShloMosaic Idealize.ShloMosaic.TcCoe Idealize.SL.Sem

/-! ## The shared host chains are the same functions in both programs -/

section Agree
attribute [local irreducible] Host.reduceAdd Host.gather Host.scatterAdd

theorem invSqrtDeg_agree (idx : (⟨Cert.KernelIdeal.S800000, .i32⟩ : BufTy).Contents (Elt Ideal)) :
    Cert.KernelIdeal.HostFns.invSqrtDeg (F := Ideal) idx = Cert.ReferenceIdeal.HostRun.invSqrtDeg (F := Ideal) idx := rfl
theorem neighbourSum_agree (h : (⟨Cert.KernelIdeal.S50000x128, .f32⟩ : BufTy).Contents (Elt Ideal)) (src dst : (⟨Cert.KernelIdeal.S800000, .i32⟩ : BufTy).Contents (Elt Ideal)) :
    Cert.KernelIdeal.HostFns.neighbourSum (F := Ideal) h src dst = Cert.ReferenceIdeal.HostRun.neighbourSum (F := Ideal) h src dst := rfl
theorem colMean_agree (z : (⟨Cert.KernelIdeal.S50000x128, .f32⟩ : BufTy).Contents (Elt Ideal)) :
    Cert.KernelIdeal.HostFns.colMean (F := Ideal) z = Cert.ReferenceIdeal.HostRun.colMean (F := Ideal) z := rfl
theorem colVar_agree (z : (⟨Cert.KernelIdeal.S50000x128, .f32⟩ : BufTy).Contents (Elt Ideal)) :
    Cert.KernelIdeal.HostFns.colVar (F := Ideal) z = Cert.ReferenceIdeal.HostRun.colVar (F := Ideal) z := rfl
end Agree

/-! ## The kernel's result, region by region -/

section Kernel
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- Region 0 leaves the input with each row scaled by the out-degree factor. -/
theorem scaled_eq : (Cert.KernelIdeal.Gen.dat0 (F := Ideal) (Cert.KernelIdeal.Gen.V1 m ρ) c).arrAt 2 Cert.KernelIdeal.cfg0.N
    = Cert.ReferenceIdeal.HostRun.rowScaled (m ((c : Thread Cert.KernelIdeal.nD Cert.KernelIdeal.τ).loc Cert.KernelIdeal.main_arg0)) (Cert.ReferenceIdeal.HostRun.invSqrtDeg (m ((c : Thread Cert.KernelIdeal.nD Cert.KernelIdeal.τ).loc Cert.KernelIdeal.main_arg5))) := by
  rw [Cert.RowScale.region0_eq (Cert.KernelIdeal.Gen.V1 m ρ) c _ _ (Cert.KernelIdeal.Bounds.W1_arg0 m ρ c) (Cert.KernelIdeal.Bounds.W1_v12 m ρ c), invSqrtDeg_agree]
  rfl

/-- Region 1 leaves the pre-normalization activations. -/
theorem preNorm_eq : (Cert.KernelIdeal.Gen.dat1 (F := Ideal) (Cert.KernelIdeal.Gen.V3 m ρ) c).arrAt 4 Cert.KernelIdeal.cfg1.N
    = Cert.ReferenceIdeal.HostRun.preNorm (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg5)) (m ((c : Thread Cert.KernelIdeal.nD Cert.KernelIdeal.τ).loc Cert.KernelIdeal.main_arg6)) := by
  rw [Cert.RowAffine.region1_eq (Cert.KernelIdeal.Gen.V3 m ρ) c _ _ _ _ (Cert.KernelIdeal.Bounds.W3_v25 m ρ c) (Cert.KernelIdeal.Bounds.W3_v14 m ρ c)
    (Cert.KernelIdeal.Bounds.W3_arg1 m ρ c) (Cert.KernelIdeal.Bounds.W3_v26 m ρ c), scaled_eq, neighbourSum_agree, invSqrtDeg_agree]
  rfl

/-- Region 2 leaves the reference's result. -/
theorem result_eq : Cert.KernelIdeal.Gen.W8 m ρ c (Proc.devRef .tc Cert.KernelIdeal.main_v36)
    = Cert.ReferenceIdeal.HostRun.result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  rw [Cert.KernelIdeal.ValueRun.result_is_region2,
    Cert.NormAct.region2_eq (Cert.KernelIdeal.Gen.V7 m ρ) c _ _ _ _ _ _ (Cert.KernelIdeal.Bounds.W7_v27 m ρ c) (Cert.KernelIdeal.Bounds.W7_arg0 m ρ c)
      (Cert.KernelIdeal.Bounds.W7_v34 m ρ c) (Cert.KernelIdeal.Bounds.W7_v35 m ρ c) (Cert.KernelIdeal.Bounds.W7_v31 m ρ c) (Cert.KernelIdeal.Bounds.W7_v33 m ρ c),
    preNorm_eq, colMean_agree, colVar_agree]
  rfl

end Kernel

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both runs end with the result at `result` of the arguments, which agree. -/
theorem algebraic : Cert.algebraic_KernelIdeal_ReferenceIdeal := by
  intro m ρ m' ρ' _ hagree
  refine ⟨fun c => Cert.ReferenceIdeal.HostRun.result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)),
    (θ_run Cert.KernelIdeal.defs _ _).mono (fun r h c => ⟨(h c).1.trans (result_eq m ρ c), (h c).2⟩) (Cert.KernelIdeal.ValueRun.run_result m ρ), ?_⟩
  refine (θ_run Cert.ReferenceIdeal.defs _ _).mono (fun r h c => ⟨?_, (h c).2⟩) (Cert.ReferenceIdeal.HostRun.run (F := Ideal) m' ρ')
  rw [(h c).1, (hagree c).1, (hagree c).2.1, (hagree c).2.2.1, (hagree c).2.2.2.1, (hagree c).2.2.2.2.1,
    (hagree c).2.2.2.2.2.1, (hagree c).2.2.2.2.2.2]

end Cert.Proof.Whole

end
-- ==== Proof.lean ====
/- The proof of `Cert.Claim`: the kernel (a graph-convolution cell: degree-normalized neighbour sums, an affine map,
   batch normalization over the node axis, a leaky rectifier and a residual) against its whole-array reference, over the
   extended reals. The three frames are the programs' runs with the values dropped; the idealization rewrote nothing, so
   `preserves` is trivial; and the two idealized programs end with equal results because the kernel's three regions
   leave, block by block, exactly the arrays the reference computes whole, with the same host operations between them
   (Proof/Bridge.lean, over Proof/RowScale.lean, Proof/RowAffine.lean and Proof/NormAct.lean for the regions,
   Proof/KernelRun.lean, Proof/KernelHost.lean and Proof/KernelBounds.lean for the kernel's run and host side, and
   Proof/RefOps.lean and Proof/RefRun.lean for the reference's run). -/
import proofs.«158064_j74947179316229_1_alg».proof.Defs
import proofs.«158064_j74947179316229_1_alg».proof.Proof.Bridge
import proofs.«158064_j74947179316229_1_alg».proof.Proof.Gen.Kernel
import proofs.«158064_j74947179316229_1_alg».proof.Proof.Gen.Kernel.Skeleton
import proofs.«158064_j74947179316229_1_alg».proof.Proof.Gen.Kernel.Launch
import proofs.«158064_j74947179316229_1_alg».proof.Proof.Gen.Kernel.Points
import proofs.«158064_j74947179316229_1_alg».proof.Proof.Gen.Kernel.Frame
import proofs.«158064_j74947179316229_1_alg».proof.Proof.Gen.KernelIdeal
import proofs.«158064_j74947179316229_1_alg».proof.Proof.Gen.KernelIdeal.Skeleton
import proofs.«158064_j74947179316229_1_alg».proof.Proof.Gen.KernelIdeal.Launch
import proofs.«158064_j74947179316229_1_alg».proof.Proof.Gen.KernelIdeal.Points
import proofs.«158064_j74947179316229_1_alg».proof.Proof.Gen.KernelIdeal.Frame
import proofs.«158064_j74947179316229_1_alg».proof.Proof.Gen.ReferenceIdeal
import proofs.«158064_j74947179316229_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Whole.frame_k, Whole.frame_ki, Whole.frame_ri, Whole.preserves, Whole.algebraic⟩

end Cert.Proof

end
